-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64 .f32) (main_arg15 : FVec F S64 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S128 .f32) (main_arg9 : FVec F S64x128 .f32) (main_arg10 : FVec F S64 .f32) (main_arg11 : FVec F S64x128 .f32) (main_arg12 : FVec F S64 .f32) (main_arg13 : FVec F S64 .f32) (main_arg14 : FVec F S64 .f32) (main_arg15 : FVec F S64 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S64x128 .f32 := Host.absf main_arg9
  let main_cst_14 : FVec F S_ .f32 := constant S_ .f32 0x7F800000#32
  let main_v40 : FVec F S64x128 .f32 := broadcastInDim S64x128 ![] bcast_S_S64x128 main_cst_14
  let main_v41 : IVec S64x128 1 := cmpf .olt main_v39 main_v40
  let main_c_15 : IVec S_ 1 := constantI S_ 1 1#1
  let main_v42 : IVec S_ 1 := (fun x v => Host.reduce IntOp.andi x v reducesTo_S64x128_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x128 .f32 := Host.absf main_arg11
  let main_cst_18 : FVec F S_ .f32 := constant S_ .f32 0x7F800000#32
  let main_v50 : FVec F S64x128 .f32 := broadcastInDim S64x128 ![] bcast_S_S64x128 main_cst_18
  fn_part3 (F := F) main_arg12 main_arg13 main_arg14 main_arg15 main_v48 main_v49 main_v50

def fn_part1 {F : FTy → Type} [FloatOps F] (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_arg12 : FVec F S64 .f32) (main_arg13 : FVec F S64 .f32) (main_arg14 : FVec F S64 .f32) (main_arg15 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S100000x64 .f32) (main_arg1 : IVec S2x1600000 32) (main_arg2 : FVec F S128x64 .f32) (main_arg3 : FVec F S128 .f32) (main_arg4 : FVec F S128x64 .f32) (main_arg5 : FVec F S128 .f32) (main_arg6 : FVec F S128 .f32) (main_arg7 : FVec F S128 .f32) (main_arg8 : FVec F S128 .f32) (main_arg9 : FVec F S64x128 .f32) (main_arg10 : FVec F S64 .f32) (main_arg11 : FVec F S64x128 .f32) (main_arg12 : FVec F S64 .f32) (main_arg13 : FVec F S64 .f32) (main_arg14 : FVec F S64 .f32) (main_arg15 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩
abbrev S1600000x128 : Shape := ⟨2, ![1600000, 128]⟩
abbrev S1x64 : Shape := ⟨2, ![1, 64]⟩

abbrev nBuf : Space → Nat
  | .hbm => 75
  | .vmem => 26
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .f32⟩
  | .hbm, ⟨21, _⟩ => ⟨S1600000, .f32⟩
  | .hbm, ⟨22, _⟩ => ⟨S_, .f32⟩
  | .hbm, ⟨23, _⟩ => ⟨S100000, .f32⟩
  | .hbm, ⟨24, _⟩ => ⟨S1600000x1, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S100000x1, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x64, .f32⟩
  | .hbm, ⟨42, _⟩ => ⟨S_, .f32⟩
  | .hbm, ⟨43, _⟩ => ⟨S100000x64, .f32⟩
  | .hbm, ⟨44, _⟩ => ⟨S1600000x1, .i32⟩
  | .hbm, ⟨45, _⟩ => ⟨S100000x64, .f32⟩
  | .hbm, ⟨46, _⟩ => ⟨S100000x64, .f32⟩
  | .hbm, ⟨47, _⟩ => ⟨S100000x64, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S1x128, .f32⟩
  | .hbm, ⟨53, _⟩ => ⟨S100000x128, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S100000x128, .f32⟩
  | .hbm, ⟨68, _⟩ => ⟨S100000x128, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S128x64, .f32⟩
  | .local _ .vmem, ⟨5, _⟩ => ⟨S1x128, .f32⟩
  | .local _ .vmem, ⟨6, _⟩ => ⟨S128x64, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S64x128, .f32⟩
  | .local _ .vmem, ⟨18, _⟩ => ⟨S1x64, .f32⟩
  | .local _ .vmem, ⟨19, _⟩ => ⟨S64x128, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S5000x64, .f32⟩
  | .local _ .vmem, ⟨25, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_cst_0 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c : Ref sig .tc := ⟨.hbm, 33, rfl⟩
abbrev main_v13 : Ref sig .tc := ⟨.hbm, 34, rfl⟩
abbrev main_v14 : Ref sig .tc := ⟨.hbm, 35, rfl⟩
abbrev main_c_3 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_cst_4 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_5 : Ref sig .tc := ⟨.hbm, 54, rfl⟩
abbrev main_v31 : Ref sig .tc := ⟨.hbm, 55, rfl⟩
abbrev main_v32 : Ref sig .tc := ⟨.hbm, 56, rfl⟩
abbrev main_c_6 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_7 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  shapeCasts_S128_S1x128 : S128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S64_S1x64 : S64.ShapeCasts S1x64
  shapeCasts_S5000x128_S5000x128 : S5000x128.ShapeCasts S5000x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x128_S5000x128_1_0_0_1_n_n_wf : DotDims.WF S5000x64 S64x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S100000x128.size a
  hwx0_9 : ∀ i : grid0.Coords, EltTy.bits .f32 = 32 ∨ (Rect.block (s := S100000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x128.size a ≤ S64x128.size a
  hwx1_4 : ∀ i : grid1.Coords, EltTy.bits .f32 = 32 ∨ (Rect.block (s := S64x128) S64x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S64x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v45) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v46) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v47) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v48) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S128x64 : Shape := ⟨2, ![128, 64]⟩
abbrev S128 : Shape := ⟨1, ![128]⟩
abbrev S64x128 : Shape := ⟨2, ![64, 128]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S1600000x128 : Shape := ⟨2, ![1600000, 128]⟩
abbrev S1x64 : Shape := ⟨2, ![1, 64]⟩

abbrev nBuf : Space → Nat
  | .hbm => 121
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S128x64, .f32⟩
  | .hbm, ⟨3, _⟩ => ⟨S128, .f32⟩
  | .hbm, ⟨4, _⟩ => ⟨S128x64, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S64x128, .f32⟩
  | .hbm, ⟨10, _⟩ => ⟨S64, .f32⟩
  | .hbm, ⟨11, _⟩ => ⟨S64x128, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x64, .f32⟩
  | .hbm, ⟨29, _⟩ => ⟨S_, .f32⟩
  | .hbm, ⟨30, _⟩ => ⟨S100000x64, .f32⟩
  | .hbm, ⟨31, _⟩ => ⟨S1600000x1, .i32⟩
  | .hbm, ⟨32, _⟩ => ⟨S100000x64, .f32⟩
  | .hbm, ⟨33, _⟩ => ⟨S_, .f32⟩
  | .hbm, ⟨34, _⟩ => ⟨S1600000, .f32⟩
  | .hbm, ⟨35, _⟩ => ⟨S_, .f32⟩
  | .hbm, ⟨36, _⟩ => ⟨S100000, .f32⟩
  | .hbm, ⟨37, _⟩ => ⟨S1600000x1, .i32⟩
  | .hbm, ⟨38, _⟩ => ⟨S100000, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S100000x1, .f32⟩
  | .hbm, ⟨43, _⟩ => ⟨S100000x64, .f32⟩
  | .hbm, ⟨44, _⟩ => ⟨S100000x64, .f32⟩
  | .hbm, ⟨45, _⟩ => ⟨S64x128, .f32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S64x128, .f32⟩
  | .hbm, ⟨51, _⟩ => ⟨S100000x128, .f32⟩
  | .hbm, ⟨52, _⟩ => ⟨S100000x128, .f32⟩
  | .hbm, ⟨53, _⟩ => ⟨S1x128, .f32⟩
  | .hbm, ⟨54, _⟩ => ⟨S100000x128, .f32⟩
  | .hbm, ⟨55, _⟩ => ⟨S100000x128, .f32⟩
  | .hbm, ⟨56, _⟩ => ⟨S_, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S1x128, .f32⟩
  | .hbm, ⟨61, _⟩ => ⟨S100000x128, .f32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .f32⟩
  | .hbm, ⟨69, _⟩ => ⟨S_, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1600000, .i32⟩
  | .hbm, ⟨74, _⟩ => ⟨S1600000, .i1⟩
  | .hbm, ⟨75, _⟩ => ⟨S_, .i32⟩
  | .hbm, ⟨76, _⟩ => ⟨S1600000, .i32⟩
  | .hbm, ⟨77, _⟩ => ⟨S1600000, .i32⟩
  | .hbm, ⟨78, _⟩ => ⟨S1600000, .i32⟩
  | .hbm, ⟨79, _⟩ => ⟨S1600000x1, .i32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S_, .f32⟩
  | .hbm, ⟨86, _⟩ => ⟨S1600000, .f32⟩
  | .hbm, ⟨87, _⟩ => ⟨S_, .f32⟩
  | .hbm, ⟨88, _⟩ => ⟨S100000, .f32⟩
  | .hbm, ⟨89, _⟩ => ⟨S1600000x1, .i32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S128x64, .f32⟩
  | .hbm, ⟨98, _⟩ => ⟨S100000x64, .f32⟩
  | .hbm, ⟨99, _⟩ => ⟨S1x64, .f32⟩
  | .hbm, ⟨100, _⟩ => ⟨S100000x64, .f32⟩
  | .hbm, ⟨101, _⟩ => ⟨S100000x64, .f32⟩
  | .hbm, ⟨102, _⟩ => ⟨S128x64, .f32⟩
  | .hbm, ⟨103, _⟩ => ⟨S100000x64, .f32⟩
  | .hbm, ⟨104, _⟩ => ⟨S100000x64, .f32⟩
  | .hbm, ⟨105, _⟩ => ⟨S1x64, .f32⟩
  | .hbm, ⟨106, _⟩ => ⟨S100000x64, .f32⟩
  | .hbm, ⟨107, _⟩ => ⟨S100000x64, .f32⟩
  | .hbm, ⟨108, _⟩ => ⟨S_, .f32⟩
  | .hbm, ⟨109, _⟩ => ⟨S64, .f32⟩
  | .hbm, ⟨110, _⟩ => ⟨S64, .f32⟩
  | .hbm, ⟨111, _⟩ => ⟨S64, .f32⟩
  | .hbm, ⟨112, _⟩ => ⟨S1x64, .f32⟩
  | .hbm, ⟨113, _⟩ => ⟨S100000x64, .f32⟩
  | .hbm, ⟨114, _⟩ => ⟨S100000x64, .f32⟩
  | .hbm, ⟨115, _⟩ => ⟨S1x64, .f32⟩
  | .hbm, ⟨116, _⟩ => ⟨S100000x64, .f32⟩
  | .hbm, ⟨117, _⟩ => ⟨S100000x64, .f32⟩
  | .hbm, ⟨118, _⟩ => ⟨S1x64, .f32⟩
  | .hbm, ⟨119, _⟩ => ⟨S100000x64, .f32⟩
  | .hbm, ⟨120, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_cst : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_cst_1 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_call0_cst : Ref sig .tc := ⟨.hbm, 69, rfl⟩
abbrev main_call0_v0 : Ref sig .tc := ⟨.hbm, 70, rfl⟩
abbrev main_v46 : Ref sig .tc := ⟨.hbm, 71, rfl⟩
abbrev main_c_5 : Ref sig .tc := ⟨.hbm, 72, rfl⟩
abbrev main_v47 : Ref sig .tc := ⟨.hbm, 73, rfl⟩
abbrev main_v48 : Ref sig .tc := ⟨.hbm, 74, rfl⟩
abbrev main_c_6 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_7 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_8 : Ref sig .tc := ⟨.hbm, 85, rfl⟩
abbrev main_v57 : Ref sig .tc := ⟨.hbm, 86, rfl⟩
abbrev main_cst_9 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_10 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_11 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S128 : S_.BroadcastsInDim S128 (![] : Fin 0 → Fin S128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The whole program's run with the result named.  Every weakly fair execution of the program terminates without a
  fault; when it does, every buffer that outlives the two calls holds the contents of the last segment boundary.  In
  particular the result buffer holds what the second pipelined call's write-backs leave in it, and each argument array
  what it held at launch (no host operation and no call writes an argument).
-/
import proofs.«178429_j11141145166397_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents, the arguments as launched. -/
theorem run : θ_run defs (onTc (τ := τ) (main (F := F))) ⟨m, fun _ => 0, ρ⟩ (fun r => ∀ c : Dev nD,
      r.2.mem ((c.tc : Thread nD τ).loc main_v48) = W4 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v48 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.RunValue

end
-- ==== Proof.LibMatmulSum.lean ====
/-
  A plain matrix product  [n, K] x [K, w] -> [n, w]  at the ideal values, for any contraction length K and whichever
  record of dimension numbers spells it: the sum over the record's own contraction index, read at entry (p, q), is the
  sum over k < K of left(p, k) * right(k, q).  A kernel's matrix-unit product into a zero accumulator is that sum.
  The record enters only through six facts about its index maps (one contracted axis of extent K; the left operand
  contracted on its axis 1, the right on its axis 0; the result's axes the left's axis 0 and the right's axis 1).
-/
import Idealize.ShloMosaic.PureOps.Ideal.Laws
import Idealize.ShloMosaic.Lib.Pipeline.Value
import Idealize.ShloMosaic.Lib.ValueIdx

noncomputable section

namespace Cert.LibMatmulSum

open Idealize.ShloMosaic Idealize.ShloMosaic.ValueIdx

/-- The index facts of a plain product with contraction length `K`. -/
structure Plain {n K w : ℕ} (d : DotDims ⟨2, ![n, K]⟩ ⟨2, ![K, w]⟩ ⟨2, ![n, w]⟩) : Prop where
  rank : d.contr.rank = 1
  size : d.contr.size ⟨0, by rw [rank]; exact Nat.one_pos⟩ = K
  l0 : ∀ (i : (⟨2, ![n, w]⟩ : Shape).Idx) (q : d.contr.Idx), (d.lhsIdx i q 0).val = (i 0).val
  l1 : ∀ (i : (⟨2, ![n, w]⟩ : Shape).Idx) (q : d.contr.Idx), (d.lhsIdx i q 1).val = (q ⟨0, by rw [rank]; exact Nat.one_pos⟩).val
  r0 : ∀ (i : (⟨2, ![n, w]⟩ : Shape).Idx) (q : d.contr.Idx), (d.rhsIdx i q 0).val = (q ⟨0, by rw [rank]; exact Nat.one_pos⟩).val
  r1 : ∀ (i : (⟨2, ![n, w]⟩ : Shape).Idx) (q : d.contr.Idx), (d.rhsIdx i q 1).val = (i 1).val

/-- The contraction sum at entry (p, q), re-indexed by k < K. -/
theorem sum_eq {n K w : ℕ} {d : DotDims ⟨2, ![n, K]⟩ ⟨2, ![K, w]⟩ ⟨2, ![n, w]⟩} (hd : Plain d)
    (l : (⟨2, ![n, K]⟩ : Shape).Idx → EReal) (r : (⟨2, ![K, w]⟩ : Shape).Idx → EReal) (p : Fin n) (q : Fin w) :
    (∑ k : d.contr.Idx, l (d.lhsIdx (ix2 p q) k) * r (d.rhsIdx (ix2 p q) k)) = ∑ k : Fin K, l (ix2 p k) * r (ix2 k q) := by
  rw [← Equiv.sum_comp (contrEquiv1 d K hd.rank hd.size).symm]
  refine Finset.sum_congr rfl fun k _ => ?_
  have hk := contrEquiv1_symm_val d K hd.rank hd.size k
  have el : d.lhsIdx (ix2 p q) ((contrEquiv1 d K hd.rank hd.size).symm k) = ix2 p k := funext fun a => Fin.ext (by
    match a with
    | ⟨0, _⟩ => exact hd.l0 _ _
    | ⟨1, _⟩ => exact (hd.l1 _ _).trans hk)
  have er : d.rhsIdx (ix2 p q) ((contrEquiv1 d K hd.rank hd.size).symm k) = ix2 k q := funext fun a => Fin.ext (by
    match a with
    | ⟨0, _⟩ => exact (hd.r0 _ _).trans hk
    | ⟨1, _⟩ => exact hd.r1 _ _)
  rw [el, er]

/-- A matrix-unit product into the zero accumulator, at entry (p, q). -/
theorem matmul_zero_at {n K w : ℕ} {d : DotDims ⟨2, ![n, K]⟩ ⟨2, ![K, w]⟩ ⟨2, ![n, w]⟩} (hd : Plain d) {φ₁ φ₂ : FTy}
    (prec : Option ContractPrecision) (l : FVec Ideal ⟨2, ![n, K]⟩ φ₁) (r : FVec Ideal ⟨2, ![K, w]⟩ φ₂) (p : Fin n) (q : Fin w) :
    FloatOps.matmul d prec l r (constant ⟨2, ![n, w]⟩ .f32 0x00000000#32) (ix2 p q) = ∑ k : Fin K, l (ix2 p k) * r (ix2 k q) :=
  (Ideal.matmul_constant_zero_apply d prec l r (ix2 p q)).trans (sum_eq hd l r p q)

end Cert.LibMatmulSum

end
-- ==== Proof.Spec.lean ====
/-
  The mathematics of one layer, as one function of its operands, entry by entry.

  A layer takes the aggregated neighbour features A and the node's own features X (both n × K), two weight matrices
  Wl, Wr (each w × K, used transposed), and five rows of length w: the bias, and the mean, variance, scale and shift of
  an evaluation-mode batch normalisation.  Entry (p, q) of the result is

      (((Σ_k A[p,k]·Wl[q,k] + Σ_k X[p,k]·Wr[q,k]) + bias[q] − mean[q]) · rsqrt(var[q] + ε)) · scale[q] + shift[q].

  The other spelling of the same layer adds the bias between the two products; on the extended reals addition is
  commutative and associative without any finiteness, so the two agree everywhere (`entry_bias_between`).

  The aggregation divides a neighbour sum by  d = max(degree, 1).  One program multiplies by the reciprocal 1 / d, the
  other divides by d.  Since 1 ≤ d, d is never zero, and away from zero the quotient x / d is by definition the product
  x · d⁻¹ — at the infinities too — so  x · (1 / d) = x · d⁻¹ = x / d  for every extended real x (`mul_one_div_max`).
-/
import Idealize.ShloMosaic.PureOps.Ideal
import Idealize.ShloMosaic.Lib.ValueIdx

noncomputable section

namespace Cert.Sage

open Idealize.ShloMosaic Idealize.ShloMosaic.ValueIdx

/-- The variance offset ε of the normalisation, as both programs spell it. -/
abbrev eps : EReal := Ideal.ofBits .f32 0x3727C5AC#32

/-- The float pattern of zero and of one, as both programs spell them. -/
abbrev zeroF : EReal := Ideal.ofBits .f32 0x00000000#32
abbrev oneF : EReal := Ideal.ofBits .f32 0x3F800000#32

/-- One entry of a layer: two dot products of length `K`, the bias, then the normalisation. -/
def entry {K : ℕ} (a x wl wr : Fin K → EReal) (bias mean var scale shift : EReal) : EReal :=
  ((((∑ k, a k * wl k) + (∑ k, x k * wr k)) + bias - mean) * Ideal.rsqrt (var + eps)) * scale + shift

/-- The same entry with the bias added between the two products. -/
theorem entry_bias_between {K : ℕ} (a x wl wr : Fin K → EReal) (bias mean var scale shift : EReal) :
    ((((∑ k, a k * wl k) + bias + (∑ k, x k * wr k)) - mean) * Ideal.rsqrt (var + eps)) * scale + shift
      = entry a x wl wr bias mean var scale shift := by
  unfold entry
  rw [add_right_comm]

/-- A whole layer: entry (p, q) from row p of `A` and `X`, row q of the two weight matrices, and position q of the rows. -/
def layer {n K w : ℕ} (A X : Fin n → Fin K → EReal) (Wl Wr : Fin w → Fin K → EReal)
    (bias mean var scale shift : Fin w → EReal) : (⟨2, ![n, w]⟩ : Shape).Idx → EReal :=
  fun i => entry (A (i 0)) (X (i 0)) (Wl (i 1)) (Wr (i 1)) (bias (i 1)) (mean (i 1)) (var (i 1)) (scale (i 1)) (shift (i 1))

theorem layer_ix2 {n K w : ℕ} (A X : Fin n → Fin K → EReal) (Wl Wr : Fin w → Fin K → EReal)
    (bias mean var scale shift : Fin w → EReal) (p : Fin n) (q : Fin w) :
    layer A X Wl Wr bias mean var scale shift (ix2 p q)
      = entry (A p) (X p) (Wl q) (Wr q) (bias q) (mean q) (var q) (scale q) (shift q) := rfl

/-- The rectifier against the zero pattern, entry by entry. -/
def relu {s : Shape} (f : s.Idx → EReal) : s.Idx → EReal := fun i => max (f i) zeroF

/-- The pattern of one is the number one. -/
theorem oneF_eq : oneF = 1 := by
  simp [oneF, Ideal.ofBits, Ideal.ieee, -EReal.coe_mul]; norm_num

/-- `max(x, 1)` is never zero. -/
theorem max_one_ne_zero (x : EReal) : max x oneF ≠ 0 := by
  rw [oneF_eq]
  have h : (0 : EReal) < max x 1 := lt_of_lt_of_le zero_lt_one (le_max_right x 1)
  exact ne_of_gt h

/-- Multiplying by the reciprocal of `d = max(deg, 1)` is dividing by `d`, for every extended real `x`. -/
theorem mul_one_div_max (x deg : EReal) :
    x * Ideal.div oneF (max deg oneF) = Ideal.div x (max deg oneF) := by
  have hd := max_one_ne_zero deg
  unfold Ideal.div
  rw [if_neg hd, if_neg hd, oneF_eq, one_mul]

end Cert.Sage

end
-- ==== Proof.Body0.lean ====
/-
  The first kernel's body, read at one entry of the block it stores.

  The body loads a block of 5000 rows of the aggregated features and of the node features (64 columns each), the two
  128 × 64 weight matrices and five rows of 128 numbers.  It narrows the four matrices (no change of value here),
  transposes the weights, forms the two products on the matrix unit into zero accumulators, adds them, adds the bias
  row, subtracts the mean row, multiplies by rsqrt(variance row + ε), by the scale row, adds the shift row, and takes
  the maximum with zero.  Every step but the two products acts entry by entry; a product's entry (r, q) is the sum over
  k < 64 of left(r, k) · weights(q, k), the transpose having swapped the weights' coordinates.  So entry (r, q) of the
  stored block is the rectified layer entry of row r of the two loaded blocks, row q of the weights and position q of
  the five rows.
-/
import proofs.«178429_j11141145166397_1_alg».proof.Proof.Gen.KernelIdeal.Skeleton
import proofs.«178429_j11141145166397_1_alg».proof.Proof.LibMatmulSum
import proofs.«178429_j11141145166397_1_alg».proof.Proof.Spec
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The first kernel's product contracts the left operand's 64 columns against the transposed weights' 64 rows. -/
theorem plain0 : Cert.LibMatmulSum.Plain (n := 5000) (K := 64) (w := 128) dot_S5000x64_S64x128_S5000x128_1_0_0_1_n_n where
  rank := rfl
  size := rfl
  l0 := fun i q => by
    unfold DotDims.lhsIdx
    rw [dif_neg (show ¬(0 : Fin S5000x64.rank) ∈ dot_S5000x64_S64x128_S5000x128_1_0_0_1_n_n.lhsBatch by decide),
      dif_pos (show (0 : Fin S5000x64.rank) ∈ dot_S5000x64_S64x128_S5000x128_1_0_0_1_n_n.lhsNonContracting by decide)]
    rfl
  l1 := fun i q => dot_S5000x64_S64x128_S5000x128_1_0_0_1_n_n.lhsIdx_val_of_single rfl i q
  r0 := fun i q => dot_S5000x64_S64x128_S5000x128_1_0_0_1_n_n.rhsIdx_val_of_single rfl i q
  r1 := fun i q => by
    unfold DotDims.rhsIdx
    rw [dif_neg (show ¬(1 : Fin S64x128.rank) ∈ dot_S5000x64_S64x128_S5000x128_1_0_0_1_n_n.rhsBatch by decide),
      dif_pos (show (1 : Fin S64x128.rank) ∈ dot_S5000x64_S64x128_S5000x128_1_0_0_1_n_n.rhsNonContracting by decide)]
    rfl

/-- One product of the first kernel at entry (r, q): the left operand's row r against row q of the weights. -/
theorem dot0_at (l : FVec Ideal S5000x64 .bf16) (wt : FVec Ideal S128x64 .bf16) (r : Fin 5000) (q : Fin 128) :
    matmul dot_S5000x64_S64x128_S5000x128_1_0_0_1_n_n none l
        (transpose S64x128 [1, 0] wt transposes_S128x64_p1_0_S64x128) (constant S5000x128 .f32 0x00000000#32) (ix2 r q)
      = ∑ k : Fin 64, l (ix2 r k) * wt (ix2 q k) := by
  refine (Cert.LibMatmulSum.matmul_zero_at plain0 none l _ r q).trans ?_
  refine Finset.sum_congr rfl fun k _ => ?_
  rw [transpose_ix2_apply]

/-- A one-row block cast to its own shape and repeated down 5000 rows reads, at (r, q), the row's position q. -/
theorem row0_at (v : Vec Ideal S1x128 .f32) (r : Fin 5000) (q : Fin 128) :
    broadcastTo S5000x128 (shapeCast S1x128 v shapeCasts_S1x128_S1x128) broadcasts_S1x128_S5000x128 (ix2 r q)
      = v (ix2 (0 : Fin 1) q) := by
  rw [broadcastTo_1b_ab_apply, shapeCast_self]

/-- The stored block of the first kernel at entry (r, q). -/
theorem pay0_at (x0 x1 : Vec Ideal S5000x64 .f32) (x2 x4 : Vec Ideal S128x64 .f32) (x3 x5 x6 x7 x8 : Vec Ideal S1x128 .f32)
    (r : Fin 5000) (q : Fin 128) :
    k0_pay1 (F := Ideal) (k0_pay2 (F := Ideal) x0 x1 x2 x4 x3 x8 x7 x5 x6) (Scalar.ofBits .f32 0x00000000#32) (ix2 r q)
      = max (Cert.Sage.entry (fun k => x0 (ix2 r k)) (fun k => x1 (ix2 r k)) (fun k => x2 (ix2 q k)) (fun k => x4 (ix2 q k))
          (x3 (ix2 (0 : Fin 1) q)) (x7 (ix2 (0 : Fin 1) q)) (x8 (ix2 (0 : Fin 1) q)) (x5 (ix2 (0 : Fin 1) q)) (x6 (ix2 (0 : Fin 1) q)))
          Cert.Sage.zeroF := by
  unfold k0_pay1 k0_pay2
  dsimp only
  simp only [maximumf_apply, addf_apply, mulf_apply, subf_apply, broadcast_apply, dot0_at, row0_at,
    broadcastTo_1b_ab_apply, truncf_apply, shapeCast_self]
  rw [dot0_at (truncf FTy.bf16 x0 bitsLt_bf16_f32) (truncf FTy.bf16 x2 bitsLt_bf16_f32) r q,
    dot0_at (truncf FTy.bf16 x1 bitsLt_bf16_f32) (truncf FTy.bf16 x4 bitsLt_bf16_f32) r q]
  rfl

end Cert.KernelIdeal.Body

end
-- ==== Proof.Region0.lean ====
/-
  What the first pipelined call leaves in its result array, for ANY contents V of the buffers when the call is
  entered: the rectified layer of the arrays the call's windows stage, as one function of the array index.

  The grid has 20 points.  At point t the two row-blocked inputs and the output hold rows 5000·t … 5000·t + 4999 of
  their arrays, and the seven constant windows hold their whole (small) arrays.  The body's stored block at local entry
  (r, q) is the rectified layer entry of local row r (the body's value, read at an entry), that is of global row
  5000·t + r: so what point t writes back is block t of the layer of the whole arrays.  The 20 blocks tile the
  100000 rows — row p lies in block p / 5000 — so the array ends holding that layer everywhere.
-/
import proofs.«178429_j11141145166397_1_alg».proof.Proof.Gen.KernelIdeal.Frame
import proofs.«178429_j11141145166397_1_alg».proof.Proof.Body0
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the call stages, rectified: what its result array ends holding. -/
def G (c : Dev nD) : S100000x128.Idx → EReal :=
  Cert.Sage.relu (Cert.Sage.layer
    (fun p k => V c main_v24 (ix2 p k)) (fun p k => V c main_arg0 (ix2 p k))
    (fun q k => V c main_arg2 (ix2 q k)) (fun q k => V c main_arg4 (ix2 q k))
    (fun q => V c main_v25 (ix2 (0 : Fin 1) q)) (fun q => V c main_v28 (ix2 (0 : Fin 1) q)) (fun q => V c main_v29 (ix2 (0 : Fin 1) q))
    (fun q => V c main_v26 (ix2 (0 : Fin 1) q)) (fun q => V c main_v27 (ix2 (0 : Fin 1) q)))

/-- The printed index maps over the 20 grid points: the row-blocked windows sit at block t, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Global row of local row r at grid point t. -/
def row (t : Fin cfg0.N) (r : Fin 5000) : Fin 100000 :=
  ⟨t.val * 5000 + r.val, by have ht : t.val < 20 := lt_of_lt_of_eq t.isLt N_0; have hr := r.isLt; omega⟩

/-- Window 0's block at point t holds rows 5000·t … of its array: local entry (r, k) is global entry (5000·t + r, k). -/
theorem emb0 (t : Fin cfg0.N) (r : Fin 5000) (k : Fin 64) :
    ((cfg0.win 0).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win0_0.index t (0 : Fin 2) * 5000 + 1 * r.val = t.val * 5000 + r.val; omega
  | ⟨1, _⟩ => show win0_0.index t (1 : Fin 2) * 64 + 1 * k.val = k.val; omega

/-- Window 1's block at point t holds rows 5000·t … of its array: local entry (r, k) is global entry (5000·t + r, k). -/
theorem emb1 (t : Fin cfg0.N) (r : Fin 5000) (k : Fin 64) :
    ((cfg0.win 1).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win0_1.index t (0 : Fin 2) * 5000 + 1 * r.val = t.val * 5000 + r.val; omega
  | ⟨1, _⟩ => show win0_1.index t (1 : Fin 2) * 64 + 1 * k.val = k.val; omega

/-- Window 2 holds its whole 128 × 64 array at every point. -/
theorem emb2 (t : Fin cfg0.N) (q : Fin 128) (k : Fin 64) :
    ((cfg0.win 2).blk t).view.emb (ix2 q k) = ix2 q k := by
  obtain ⟨e00, e01, e10, e11, e20, e21, e30, e31, e40, e41, e50, e51, e60, e61, e70, e71, e80, e81, e90, e91⟩ := idx_facts t
  funext a; apply Fin.ext
  match a with
  | ⟨0, _⟩ => show win0_2.index t (0 : Fin 2) * 128 + 1 * q.val = q.val; omega
  | ⟨1, _⟩ => show win0_2.index t (1 : Fin 2) * 64 + 1 * k.val = k.val; omega

/-- Window 3 holds its whole one-row array at every point. -/
theorem emb3 (t : Fin cfg0.N) (q : Fin 128) :
    ((cfg0.win 3).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win0_3.index t (0 : Fin 2) * 1 + 1 * 0 = 0; omega
  | ⟨1, _⟩ => show win0_3.index t (1 : Fin 2) * 128 + 1 * q.val = q.val; omega

/-- Window 4 holds its whole 128 × 64 array at every point. -/
theorem emb4 (t : Fin cfg0.N) (q : Fin 128) (k : Fin 64) :
    ((cfg0.win 4).blk t).view.emb (ix2 q k) = ix2 q k := by
  obtain ⟨e00, e01, e10, e11, e20, e21, e30, e31, e40, e41, e50, e51, e60, e61, e70, e71, e80, e81, e90, e91⟩ := idx_facts t
  funext a; apply Fin.ext
  match a with
  | ⟨0, _⟩ => show win0_4.index t (0 : Fin 2) * 128 + 1 * q.val = q.val; omega
  | ⟨1, _⟩ => show win0_4.index t (1 : Fin 2) * 64 + 1 * k.val = k.val; omega

/-- Window 5 holds its whole one-row array at every point. -/
theorem emb5 (t : Fin cfg0.N) (q : Fin 128) :
    ((cfg0.win 5).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win0_5.index t (0 : Fin 2) * 1 + 1 * 0 = 0; omega
  | ⟨1, _⟩ => show win0_5.index t (1 : Fin 2) * 128 + 1 * q.val = q.val; omega

/-- Window 6 holds its whole one-row array at every point. -/
theorem emb6 (t : Fin cfg0.N) (q : Fin 128) :
    ((cfg0.win 6).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win0_6.index t (0 : Fin 2) * 1 + 1 * 0 = 0; omega
  | ⟨1, _⟩ => show win0_6.index t (1 : Fin 2) * 128 + 1 * q.val = q.val; omega

/-- Window 7 holds its whole one-row array at every point. -/
theorem emb7 (t : Fin cfg0.N) (q : Fin 128) :
    ((cfg0.win 7).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win0_7.index t (0 : Fin 2) * 1 + 1 * 0 = 0; omega
  | ⟨1, _⟩ => show win0_7.index t (1 : Fin 2) * 128 + 1 * q.val = q.val; omega

/-- Window 8 holds its whole one-row array at every point. -/
theorem emb8 (t : Fin cfg0.N) (q : Fin 128) :
    ((cfg0.win 8).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win0_8.index t (0 : Fin 2) * 1 + 1 * 0 = 0; omega
  | ⟨1, _⟩ => show win0_8.index t (1 : Fin 2) * 128 + 1 * q.val = q.val; omega

/-- Window 9's block at point t holds rows 5000·t … of its array: local entry (r, k) is global entry (5000·t + r, k). -/
theorem emb9 (t : Fin cfg0.N) (r : Fin 5000) (k : Fin 128) :
    ((cfg0.win 9).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win0_9.index t (0 : Fin 2) * 5000 + 1 * r.val = t.val * 5000 + r.val; omega
  | ⟨1, _⟩ => show win0_9.index t (1 : Fin 2) * 128 + 1 * k.val = k.val; omega

/-- WHAT POINT t WRITES BACK is block t of the layer of the whole arrays. -/
theorem flushed (c : Dev nD) (t : Fin cfg0.N) :
    (dat0 (F := Ideal) V c).flushed 9 t = ((cfg0.win 9).blk t).view.read (Elt Ideal) (G V c) := by
  show (cfg0.win 9).cut (grid0.coords t) ((dat0 V c).after 9 t) = _
  rw [after0_9]
  unfold out0_9
  rw [View.canon_unit_zero hz]
  simp only [View.ld_unit_zero (S := S5000x64) hz, View.ld_unit_zero (S := S128x64) hz, View.ld_unit_zero (S := S1x128) hz]
  funext j
  obtain ⟨r, q, rfl⟩ : ∃ (r : Fin 5000) (q : Fin 128), j = ix2 r q := ⟨j 0, j 1, eq_ix2 j⟩
  show k0_pay1 (F := Ideal) (k0_pay2 (iblk0 V c 0 t) (iblk0 V c 1 t) (iblk0 V c 2 t) (iblk0 V c 4 t) (iblk0 V c 3 t) (iblk0 V c 8 t) (iblk0 V c 7 t) (iblk0 V c 5 t) (iblk0 V c 6 t)) (Scalar.ofBits .f32 0x00000000#32) (ix2 r q) = G V c (((cfg0.win 9).blk t).view.emb (ix2 r q))
  refine (Cert.KernelIdeal.Body.pay0_at (iblk0 V c 0 t) (iblk0 V c 1 t) (iblk0 V c 2 t) (iblk0 V c 4 t) (iblk0 V c 3 t)
    (iblk0 V c 5 t) (iblk0 V c 6 t) (iblk0 V c 7 t) (iblk0 V c 8 t) r q).trans ?_
  rw [emb9 t r q]
  have h0 : (fun k : Fin 64 => iblk0 V c 0 t (ix2 r k)) = fun k => V c main_v24 (ix2 (row t r) k) := funext fun k => by
    show V c main_v24 (((cfg0.win 0).blk t).view.emb (ix2 r k)) = _
    rw [emb0 t r k]
  have h1 : (fun k : Fin 64 => iblk0 V c 1 t (ix2 r k)) = fun k => V c main_arg0 (ix2 (row t r) k) := funext fun k => by
    show V c main_arg0 (((cfg0.win 1).blk t).view.emb (ix2 r k)) = _
    rw [emb1 t r k]
  have h2 : (fun k : Fin 64 => iblk0 V c 2 t (ix2 q k)) = fun k => V c main_arg2 (ix2 q k) := funext fun k => by
    show V c main_arg2 (((cfg0.win 2).blk t).view.emb (ix2 q k)) = _
    rw [emb2 t q k]
  have h4 : (fun k : Fin 64 => iblk0 V c 4 t (ix2 q k)) = fun k => V c main_arg4 (ix2 q k) := funext fun k => by
    show V c main_arg4 (((cfg0.win 4).blk t).view.emb (ix2 q k)) = _
    rw [emb4 t q k]
  have h3 : iblk0 V c 3 t (ix2 (0 : Fin 1) q) = V c main_v25 (ix2 (0 : Fin 1) q) := by
    show V c main_v25 (((cfg0.win 3).blk t).view.emb (ix2 (0 : Fin 1) q)) = _
    rw [emb3 t q]
  have h5 : iblk0 V c 5 t (ix2 (0 : Fin 1) q) = V c main_v26 (ix2 (0 : Fin 1) q) := by
    show V c main_v26 (((cfg0.win 5).blk t).view.emb (ix2 (0 : Fin 1) q)) = _
    rw [emb5 t q]
  have h6 : iblk0 V c 6 t (ix2 (0 : Fin 1) q) = V c main_v27 (ix2 (0 : Fin 1) q) := by
    show V c main_v27 (((cfg0.win 6).blk t).view.emb (ix2 (0 : Fin 1) q)) = _
    rw [emb6 t q]
  have h7 : iblk0 V c 7 t (ix2 (0 : Fin 1) q) = V c main_v28 (ix2 (0 : Fin 1) q) := by
    show V c main_v28 (((cfg0.win 7).blk t).view.emb (ix2 (0 : Fin 1) q)) = _
    rw [emb7 t q]
  have h8 : iblk0 V c 8 t (ix2 (0 : Fin 1) q) = V c main_v29 (ix2 (0 : Fin 1) q) := by
    show V c main_v29 (((cfg0.win 8).blk t).view.emb (ix2 (0 : Fin 1) q)) = _
    rw [emb8 t q]
  rw [h0, h1, h2, h4, h3, h5, h6, h7, h8]
  rfl

/-- An index of the array is in point t's block iff each coordinate is in the block's range on its axis. -/
theorem mem_blk (t : Fin cfg0.N) (i : S100000x128.Idx) :
    i ∈ ((cfg0.win 9).blk t).view.set ↔ ∀ a : Fin 2, win0_9.index t a * S5000x128.size a ≤ (i a).val ∧ (i a).val < win0_9.index t a * S5000x128.size a + S5000x128.size a := by
  show i ∈ ((View.whole main_v30).slice (win0_9.rect t)).set ↔ _
  rw [View.set_slice_whole, Rect.mem_set_unit]
  exact Iff.rfl

/-- Every index of the result array lies in the block of the point its row's quotient by 5000 names. -/
theorem cover (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  have hlt : (i 0).val / 5000 < cfg0.N := lt_of_lt_of_eq (by omega : (i 0).val / 5000 < 20) N_0.symm
  obtain ⟨t, tv⟩ : ∃ t : Fin cfg0.N, t.val = (i 0).val / 5000 := ⟨⟨(i 0).val / 5000, hlt⟩, rfl⟩
  obtain ⟨e00, e01, e10, e11, e20, e21, e30, e31, e40, e41, e50, e51, e60, e61, e70, e71, e80, e81, e90, e91⟩ := idx_facts t
  refine ⟨t, flush0_9 t, ?_⟩
  rw [mem_blk]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 128 ≤ (i 1).val ∧ (i 1).val < win0_9.index t (1 : Fin 2) * 128 + 128; omega

/-- THE ARRAY after the call: the layer of the arrays as the call found them. -/
theorem final (c : Dev nD) : (dat0 (F := Ideal) V c).arrAt 9 cfg0.N = G V c :=
  (dat0 V c).arrAt_eq_of_cover 9 (G V c) (fun t _ => flushed V c t) cover

end Cert.KernelIdeal.Region0

end
-- ==== Proof.Body1.lean ====
/-
  The second kernel's body, read at one entry of the block it stores.

  The same body as the first kernel's with other extents and without the final maximum: blocks of 5000 rows and 128
  columns of the aggregated hidden features and of the hidden features, two 64 × 128 weight matrices, five rows of 64
  numbers.  A product's entry (r, q) is the sum over k < 128 of left(r, k) · weights(q, k).  Entry (r, q) of the stored
  block is the layer entry of row r of the two loaded blocks, row q of the weights and position q of the five rows.
-/
import proofs.«178429_j11141145166397_1_alg».proof.Proof.Gen.KernelIdeal.Skeleton
import proofs.«178429_j11141145166397_1_alg».proof.Proof.LibMatmulSum
import proofs.«178429_j11141145166397_1_alg».proof.Proof.Spec
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Gen

/-- The second kernel's product contracts the left operand's 128 columns against the transposed weights' 128 rows. -/
theorem plain1 : Cert.LibMatmulSum.Plain (n := 5000) (K := 128) (w := 64) dot_S5000x128_S128x64_S5000x64_1_0_0_1_n_n where
  rank := rfl
  size := rfl
  l0 := fun i q => by
    unfold DotDims.lhsIdx
    rw [dif_neg (show ¬(0 : Fin S5000x128.rank) ∈ dot_S5000x128_S128x64_S5000x64_1_0_0_1_n_n.lhsBatch by decide),
      dif_pos (show (0 : Fin S5000x128.rank) ∈ dot_S5000x128_S128x64_S5000x64_1_0_0_1_n_n.lhsNonContracting by decide)]
    rfl
  l1 := fun i q => dot_S5000x128_S128x64_S5000x64_1_0_0_1_n_n.lhsIdx_val_of_single rfl i q
  r0 := fun i q => dot_S5000x128_S128x64_S5000x64_1_0_0_1_n_n.rhsIdx_val_of_single rfl i q
  r1 := fun i q => by
    unfold DotDims.rhsIdx
    rw [dif_neg (show ¬(1 : Fin S128x64.rank) ∈ dot_S5000x128_S128x64_S5000x64_1_0_0_1_n_n.rhsBatch by decide),
      dif_pos (show (1 : Fin S128x64.rank) ∈ dot_S5000x128_S128x64_S5000x64_1_0_0_1_n_n.rhsNonContracting by decide)]
    rfl

/-- One product of the second kernel at entry (r, q): the left operand's row r against row q of the weights. -/
theorem dot1_at (l : FVec Ideal S5000x128 .bf16) (wt : FVec Ideal S64x128 .bf16) (r : Fin 5000) (q : Fin 64) :
    matmul dot_S5000x128_S128x64_S5000x64_1_0_0_1_n_n none l
        (transpose S128x64 [1, 0] wt transposes_S64x128_p1_0_S128x64) (constant S5000x64 .f32 0x00000000#32) (ix2 r q)
      = ∑ k : Fin 128, l (ix2 r k) * wt (ix2 q k) := by
  refine (Cert.LibMatmulSum.matmul_zero_at plain1 none l _ r q).trans ?_
  refine Finset.sum_congr rfl fun k _ => ?_
  rw [transpose_ix2_apply]

/-- A one-row block cast to its own shape and repeated down 5000 rows reads, at (r, q), the row's position q. -/
theorem row1_at (v : Vec Ideal S1x64 .f32) (r : Fin 5000) (q : Fin 64) :
    broadcastTo S5000x64 (shapeCast S1x64 v shapeCasts_S1x64_S1x64) broadcasts_S1x64_S5000x64 (ix2 r q)
      = v (ix2 (0 : Fin 1) q) := by
  rw [broadcastTo_1b_ab_apply, shapeCast_self]

/-- The stored block of the second kernel at entry (r, q). -/
theorem pay1_at (x0 x1 : Vec Ideal S5000x128 .f32) (x2 x4 : Vec Ideal S64x128 .f32) (x3 x5 x6 x7 x8 : Vec Ideal S1x64 .f32)
    (r : Fin 5000) (q : Fin 64) :
    k1_pay1 (F := Ideal) x0 x1 x2 x4 x3 x8 x7 x5 x6 (ix2 r q)
      = Cert.Sage.entry (fun k => x0 (ix2 r k)) (fun k => x1 (ix2 r k)) (fun k => x2 (ix2 q k)) (fun k => x4 (ix2 q k))
          (x3 (ix2 (0 : Fin 1) q)) (x7 (ix2 (0 : Fin 1) q)) (x8 (ix2 (0 : Fin 1) q)) (x5 (ix2 (0 : Fin 1) q)) (x6 (ix2 (0 : Fin 1) q)) := by
  unfold k1_pay1
  dsimp only
  simp only [addf_apply, mulf_apply, subf_apply, broadcast_apply, row1_at,
    broadcastTo_1b_ab_apply, truncf_apply, shapeCast_self]
  rw [dot1_at (truncf FTy.bf16 x0 bitsLt_bf16_f32) (truncf FTy.bf16 x2 bitsLt_bf16_f32) r q,
    dot1_at (truncf FTy.bf16 x1 bitsLt_bf16_f32) (truncf FTy.bf16 x4 bitsLt_bf16_f32) r q]
  rfl

end Cert.KernelIdeal.Body

end
-- ==== Proof.Region1.lean ====
/-
  What the second pipelined call leaves in its result array, for ANY contents V of the buffers when the call is
  entered: the layer of the arrays the call's windows stage, as one function of the array index.

  The grid has 20 points.  At point t the two row-blocked inputs and the output hold rows 5000·t … 5000·t + 4999 of
  their arrays, and the seven constant windows hold their whole (small) arrays.  The body's stored block at local entry
  (r, q) is the layer entry of local row r (the body's value, read at an entry), that is of global row
  5000·t + r: so what point t writes back is block t of the layer of the whole arrays.  The 20 blocks tile the
  100000 rows — row p lies in block p / 5000 — so the array ends holding that layer everywhere.
-/
import proofs.«178429_j11141145166397_1_alg».proof.Proof.Gen.KernelIdeal.Frame
import proofs.«178429_j11141145166397_1_alg».proof.Proof.Body1
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the call stages: what its result array ends holding. -/
def G (c : Dev nD) : S100000x64.Idx → EReal :=
  Cert.Sage.layer
    (fun p k => V c main_v42 (ix2 p k)) (fun p k => V c main_v30 (ix2 p k))
    (fun q k => V c main_arg9 (ix2 q k)) (fun q k => V c main_arg11 (ix2 q k))
    (fun q => V c main_v43 (ix2 (0 : Fin 1) q)) (fun q => V c main_v46 (ix2 (0 : Fin 1) q)) (fun q => V c main_v47 (ix2 (0 : Fin 1) q))
    (fun q => V c main_v44 (ix2 (0 : Fin 1) q)) (fun q => V c main_v45 (ix2 (0 : Fin 1) q))

/-- The printed index maps over the 20 grid points: the row-blocked windows sit at block t, the others at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- Global row of local row r at grid point t. -/
def row (t : Fin cfg1.N) (r : Fin 5000) : Fin 100000 :=
  ⟨t.val * 5000 + r.val, by have ht : t.val < 20 := lt_of_lt_of_eq t.isLt N_1; have hr := r.isLt; omega⟩

/-- Window 0's block at point t holds rows 5000·t … of its array: local entry (r, k) is global entry (5000·t + r, k). -/
theorem emb0 (t : Fin cfg1.N) (r : Fin 5000) (k : Fin 128) :
    ((cfg1.win 0).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win1_0.index t (0 : Fin 2) * 5000 + 1 * r.val = t.val * 5000 + r.val; omega
  | ⟨1, _⟩ => show win1_0.index t (1 : Fin 2) * 128 + 1 * k.val = k.val; omega

/-- Window 1's block at point t holds rows 5000·t … of its array: local entry (r, k) is global entry (5000·t + r, k). -/
theorem emb1 (t : Fin cfg1.N) (r : Fin 5000) (k : Fin 128) :
    ((cfg1.win 1).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win1_1.index t (0 : Fin 2) * 5000 + 1 * r.val = t.val * 5000 + r.val; omega
  | ⟨1, _⟩ => show win1_1.index t (1 : Fin 2) * 128 + 1 * k.val = k.val; omega

/-- Window 2 holds its whole 64 × 128 array at every point. -/
theorem emb2 (t : Fin cfg1.N) (q : Fin 64) (k : Fin 128) :
    ((cfg1.win 2).blk t).view.emb (ix2 q k) = ix2 q k := by
  obtain ⟨e00, e01, e10, e11, e20, e21, e30, e31, e40, e41, e50, e51, e60, e61, e70, e71, e80, e81, e90, e91⟩ := idx_facts t
  funext a; apply Fin.ext
  match a with
  | ⟨0, _⟩ => show win1_2.index t (0 : Fin 2) * 64 + 1 * q.val = q.val; omega
  | ⟨1, _⟩ => show win1_2.index t (1 : Fin 2) * 128 + 1 * k.val = k.val; omega

/-- Window 3 holds its whole one-row array at every point. -/
theorem emb3 (t : Fin cfg1.N) (q : Fin 64) :
    ((cfg1.win 3).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win1_3.index t (0 : Fin 2) * 1 + 1 * 0 = 0; omega
  | ⟨1, _⟩ => show win1_3.index t (1 : Fin 2) * 64 + 1 * q.val = q.val; omega

/-- Window 4 holds its whole 64 × 128 array at every point. -/
theorem emb4 (t : Fin cfg1.N) (q : Fin 64) (k : Fin 128) :
    ((cfg1.win 4).blk t).view.emb (ix2 q k) = ix2 q k := by
  obtain ⟨e00, e01, e10, e11, e20, e21, e30, e31, e40, e41, e50, e51, e60, e61, e70, e71, e80, e81, e90, e91⟩ := idx_facts t
  funext a; apply Fin.ext
  match a with
  | ⟨0, _⟩ => show win1_4.index t (0 : Fin 2) * 64 + 1 * q.val = q.val; omega
  | ⟨1, _⟩ => show win1_4.index t (1 : Fin 2) * 128 + 1 * k.val = k.val; omega

/-- Window 5 holds its whole one-row array at every point. -/
theorem emb5 (t : Fin cfg1.N) (q : Fin 64) :
    ((cfg1.win 5).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win1_5.index t (0 : Fin 2) * 1 + 1 * 0 = 0; omega
  | ⟨1, _⟩ => show win1_5.index t (1 : Fin 2) * 64 + 1 * q.val = q.val; omega

/-- Window 6 holds its whole one-row array at every point. -/
theorem emb6 (t : Fin cfg1.N) (q : Fin 64) :
    ((cfg1.win 6).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win1_6.index t (0 : Fin 2) * 1 + 1 * 0 = 0; omega
  | ⟨1, _⟩ => show win1_6.index t (1 : Fin 2) * 64 + 1 * q.val = q.val; omega

/-- Window 7 holds its whole one-row array at every point. -/
theorem emb7 (t : Fin cfg1.N) (q : Fin 64) :
    ((cfg1.win 7).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win1_7.index t (0 : Fin 2) * 1 + 1 * 0 = 0; omega
  | ⟨1, _⟩ => show win1_7.index t (1 : Fin 2) * 64 + 1 * q.val = q.val; omega

/-- Window 8 holds its whole one-row array at every point. -/
theorem emb8 (t : Fin cfg1.N) (q : Fin 64) :
    ((cfg1.win 8).blk t).view.emb (ix2 (0 : Fin 1) q) = ix2 (0 : Fin 1) q := by
  obtain ⟨e00, e01, e10, e11, e20, e21, e30, e31, e40, e41, e50, e51, e60, e61, e70, e71, e80, e81, e90, e91⟩ := idx_facts t
  funext a; apply Fin.ext
  match a with
  | ⟨0, _⟩ => show win1_8.index t (0 : Fin 2) * 1 + 1 * 0 = 0; omega
  | ⟨1, _⟩ => show win1_8.index t (1 : Fin 2) * 64 + 1 * q.val = q.val; omega

/-- Window 9's block at point t holds rows 5000·t … of its array: local entry (r, k) is global entry (5000·t + r, k). -/
theorem emb9 (t : Fin cfg1.N) (r : Fin 5000) (k : Fin 64) :
    ((cfg1.win 9).blk t).view.emb (ix2 r k) = ix2 (row t r) k := by
  obtain ⟨e00, e01, e10, e11, e20, e21, e30, e31, e40, e41, e50, e51, e60, e61, e70, e71, e80, e81, e90, e91⟩ := idx_facts t
  funext a; apply Fin.ext
  match a with
  | ⟨0, _⟩ => show win1_9.index t (0 : Fin 2) * 5000 + 1 * r.val = t.val * 5000 + r.val; omega
  | ⟨1, _⟩ => show win1_9.index t (1 : Fin 2) * 64 + 1 * k.val = k.val; omega

/-- WHAT POINT t WRITES BACK is block t of the layer of the whole arrays. -/
theorem flushed (c : Dev nD) (t : Fin cfg1.N) :
    (dat1 (F := Ideal) V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S5000x128) hz, View.ld_unit_zero (S := S64x128) hz, View.ld_unit_zero (S := S1x64) hz]
  funext j
  obtain ⟨r, q, rfl⟩ : ∃ (r : Fin 5000) (q : Fin 64), j = ix2 r q := ⟨j 0, j 1, eq_ix2 j⟩
  show k1_pay1 (F := Ideal) (iblk1 V c 0 t) (iblk1 V c 1 t) (iblk1 V c 2 t) (iblk1 V c 4 t) (iblk1 V c 3 t) (iblk1 V c 8 t) (iblk1 V c 7 t) (iblk1 V c 5 t) (iblk1 V c 6 t) (ix2 r q) = G V c (((cfg1.win 9).blk t).view.emb (ix2 r q))
  refine (Cert.KernelIdeal.Body.pay1_at (iblk1 V c 0 t) (iblk1 V c 1 t) (iblk1 V c 2 t) (iblk1 V c 4 t) (iblk1 V c 3 t)
    (iblk1 V c 5 t) (iblk1 V c 6 t) (iblk1 V c 7 t) (iblk1 V c 8 t) r q).trans ?_
  rw [emb9 t r q]
  have h0 : (fun k : Fin 128 => iblk1 V c 0 t (ix2 r k)) = fun k => V c main_v42 (ix2 (row t r) k) := funext fun k => by
    show V c main_v42 (((cfg1.win 0).blk t).view.emb (ix2 r k)) = _
    rw [emb0 t r k]
  have h1 : (fun k : Fin 128 => iblk1 V c 1 t (ix2 r k)) = fun k => V c main_v30 (ix2 (row t r) k) := funext fun k => by
    show V c main_v30 (((cfg1.win 1).blk t).view.emb (ix2 r k)) = _
    rw [emb1 t r k]
  have h2 : (fun k : Fin 128 => iblk1 V c 2 t (ix2 q k)) = fun k => V c main_arg9 (ix2 q k) := funext fun k => by
    show V c main_arg9 (((cfg1.win 2).blk t).view.emb (ix2 q k)) = _
    rw [emb2 t q k]
  have h4 : (fun k : Fin 128 => iblk1 V c 4 t (ix2 q k)) = fun k => V c main_arg11 (ix2 q k) := funext fun k => by
    show V c main_arg11 (((cfg1.win 4).blk t).view.emb (ix2 q k)) = _
    rw [emb4 t q k]
  have h3 : iblk1 V c 3 t (ix2 (0 : Fin 1) q) = V c main_v43 (ix2 (0 : Fin 1) q) := by
    show V c main_v43 (((cfg1.win 3).blk t).view.emb (ix2 (0 : Fin 1) q)) = _
    rw [emb3 t q]
  have h5 : iblk1 V c 5 t (ix2 (0 : Fin 1) q) = V c main_v44 (ix2 (0 : Fin 1) q) := by
    show V c main_v44 (((cfg1.win 5).blk t).view.emb (ix2 (0 : Fin 1) q)) = _
    rw [emb5 t q]
  have h6 : iblk1 V c 6 t (ix2 (0 : Fin 1) q) = V c main_v45 (ix2 (0 : Fin 1) q) := by
    show V c main_v45 (((cfg1.win 6).blk t).view.emb (ix2 (0 : Fin 1) q)) = _
    rw [emb6 t q]
  have h7 : iblk1 V c 7 t (ix2 (0 : Fin 1) q) = V c main_v46 (ix2 (0 : Fin 1) q) := by
    show V c main_v46 (((cfg1.win 7).blk t).view.emb (ix2 (0 : Fin 1) q)) = _
    rw [emb7 t q]
  have h8 : iblk1 V c 8 t (ix2 (0 : Fin 1) q) = V c main_v47 (ix2 (0 : Fin 1) q) := by
    show V c main_v47 (((cfg1.win 8).blk t).view.emb (ix2 (0 : Fin 1) q)) = _
    rw [emb8 t q]
  rw [h0, h1, h2, h4, h3, h5, h6, h7, h8]
  rfl

/-- An index of the array is in point t's block iff each coordinate is in the block's range on its axis. -/
theorem mem_blk (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v48).slice (win1_9.rect t)).set ↔ _
  rw [View.set_slice_whole, Rect.mem_set_unit]
  exact Iff.rfl

/-- Every index of the result array lies in the block of the point its row's quotient by 5000 names. -/
theorem cover (i : S100000x64.Idx) :
    ∃ t : Fin cfg1.N, (cfg1.win 9).flush t = true ∧ i ∈ ((cfg1.win 9).blk t).view.set := by
  have hi0 : (i 0).val < 100000 := (i 0).isLt
  have hi1 : (i 1).val < 64 := (i 1).isLt
  have hlt : (i 0).val / 5000 < cfg1.N := lt_of_lt_of_eq (by omega : (i 0).val / 5000 < 20) N_1.symm
  obtain ⟨t, tv⟩ : ∃ t : Fin cfg1.N, t.val = (i 0).val / 5000 := ⟨⟨(i 0).val / 5000, hlt⟩, rfl⟩
  obtain ⟨e00, e01, e10, e11, e20, e21, e30, e31, e40, e41, e50, e51, e60, e61, e70, e71, e80, e81, e90, e91⟩ := idx_facts t
  refine ⟨t, flush1_9 t, ?_⟩
  rw [mem_blk]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- THE ARRAY after the call: the layer of the arrays as the call found them. -/
theorem final (c : Dev nD) : (dat1 (F := Ideal) V c).arrAt 9 cfg1.N = G V c :=
  (dat1 V c).arrAt_eq_of_cover 9 (G V c) (fun t _ => flushed V c t) cover

end Cert.KernelIdeal.Region1

end
-- ==== Proof.RefLayers.lean ====
/-
  The reference's two layers, each as the layer function of the stage that feeds it.

  The reference computes a layer as  (A·Wlᵀ + bias) + X·Wrᵀ,  subtracts the mean, multiplies by rsqrt(var + ε) and by
  the scale, adds the shift (and, in the first layer, takes the maximum with zero).  Read at entry (p, q), each of its
  stages reads its operands at one entry — a transposed weight at the swapped entry, a row laid out as 1 × w and
  repeated down the rows at position q — and each product is the sum over the contracted index.  That is the layer
  entry with the bias added between the two products, which is the layer entry.  The aggregated operand A is left as
  the reference's own stage: nothing here looks inside it.
-/
import proofs.«178429_j11141145166397_1_alg».proof.Proof.Gen.ReferenceIdeal.Read
import proofs.«178429_j11141145166397_1_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read

/-! ## The stages' index maps at an explicit entry: first layer -/

theorem l24 (p : Fin 100000) (q : Fin 128) (k : Fin 64) : lidx_main_v24 (ix2 p q) k = ix2 p k :=
  funext fun a => Fin.ext (by match a with | ⟨0, _⟩ => rfl | ⟨1, _⟩ => rfl)
theorem r24 (p : Fin 100000) (q : Fin 128) (k : Fin 64) : ridx_main_v24 (ix2 p q) k = ix2 k q :=
  funext fun a => Fin.ext (by match a with | ⟨0, _⟩ => rfl | ⟨1, _⟩ => rfl)
theorem l29 (p : Fin 100000) (q : Fin 128) (k : Fin 64) : lidx_main_v29 (ix2 p q) k = ix2 p k :=
  funext fun a => Fin.ext (by match a with | ⟨0, _⟩ => rfl | ⟨1, _⟩ => rfl)
theorem r29 (p : Fin 100000) (q : Fin 128) (k : Fin 64) : ridx_main_v29 (ix2 p q) k = ix2 k q :=
  funext fun a => Fin.ext (by match a with | ⟨0, _⟩ => rfl | ⟨1, _⟩ => rfl)
theorem t23 (k : Fin 64) (q : Fin 128) : idx_main_v23 (ix2 k q) = ix2 q k :=
  funext fun a => Fin.ext (by match a with | ⟨0, _⟩ => rfl | ⟨1, _⟩ => rfl)
theorem t28 (k : Fin 64) (q : Fin 128) : idx_main_v28 (ix2 k q) = ix2 q k :=
  funext fun a => Fin.ext (by match a with | ⟨0, _⟩ => rfl | ⟨1, _⟩ => rfl)
theorem b26 (p : Fin 100000) (q : Fin 128) : idx_main_v26 (ix2 p q) = ix2 (0 : Fin 1) q :=
  funext fun a => Fin.ext (by match a with | ⟨0, _⟩ => rfl | ⟨1, _⟩ => rfl)
theorem b25 (q : Fin 128) : idx_main_v25 (ix2 (0 : Fin 1) q) = ix1 q :=
  funext fun a => Fin.ext (by match a with | ⟨0, _⟩ => rfl)
theorem b32 (p : Fin 100000) (q : Fin 128) : idx_main_v32 (ix2 p q) = ix2 (0 : Fin 1) q :=
  funext fun a => Fin.ext (by match a with | ⟨0, _⟩ => rfl | ⟨1, _⟩ => rfl)
theorem b31 (q : Fin 128) : idx_main_v31 (ix2 (0 : Fin 1) q) = ix1 q :=
  funext fun a => Fin.ext (by match a with | ⟨0, _⟩ => rfl)
theorem b38 (p : Fin 100000) (q : Fin 128) : idx_main_v38 (ix2 p q) = ix2 (0 : Fin 1) q :=
  funext fun a => Fin.ext (by match a with | ⟨0, _⟩ => rfl | ⟨1, _⟩ => rfl)
theorem b37 (q : Fin 128) : idx_main_v37 (ix2 (0 : Fin 1) q) = ix1 q :=
  funext fun a => Fin.ext (by match a with | ⟨0, _⟩ => rfl)
theorem b41 (p : Fin 100000) (q : Fin 128) : idx_main_v41 (ix2 p q) = ix2 (0 : Fin 1) q :=
  funext fun a => Fin.ext (by match a with | ⟨0, _⟩ => rfl | ⟨1, _⟩ => rfl)
theorem b40 (q : Fin 128) : idx_main_v40 (ix2 (0 : Fin 1) q) = ix1 q :=
  funext fun a => Fin.ext (by match a with | ⟨0, _⟩ => rfl)
theorem b44 (p : Fin 100000) (q : Fin 128) : idx_main_v44 (ix2 p q) = ix2 (0 : Fin 1) q :=
  funext fun a => Fin.ext (by match a with | ⟨0, _⟩ => rfl | ⟨1, _⟩ => rfl)
theorem b43 (q : Fin 128) : idx_main_v43 (ix2 (0 : Fin 1) q) = ix1 q :=
  funext fun a => Fin.ext (by match a with | ⟨0, _⟩ => rfl)

/-! ## The stages' index maps at an explicit entry: second layer -/

theorem l67 (p : Fin 100000) (q : Fin 64) (k : Fin 128) : lidx_main_v67 (ix2 p q) k = ix2 p k :=
  funext fun a => Fin.ext (by match a with | ⟨0, _⟩ => rfl | ⟨1, _⟩ => rfl)
theorem r67 (p : Fin 100000) (q : Fin 64) (k : Fin 128) : ridx_main_v67 (ix2 p q) k = ix2 k q :=
  funext fun a => Fin.ext (by match a with | ⟨0, _⟩ => rfl | ⟨1, _⟩ => rfl)
theorem l72 (p : Fin 100000) (q : Fin 64) (k : Fin 128) : lidx_main_v72 (ix2 p q) k = ix2 p k :=
  funext fun a => Fin.ext (by match a with | ⟨0, _⟩ => rfl | ⟨1, _⟩ => rfl)
theorem r72 (p : Fin 100000) (q : Fin 64) (k : Fin 128) : ridx_main_v72 (ix2 p q) k = ix2 k q :=
  funext fun a => Fin.ext (by match a with | ⟨0, _⟩ => rfl | ⟨1, _⟩ => rfl)
theorem t66 (k : Fin 128) (q : Fin 64) : idx_main_v66 (ix2 k q) = ix2 q k :=
  funext fun a => Fin.ext (by match a with | ⟨0, _⟩ => rfl | ⟨1, _⟩ => rfl)
theorem t71 (k : Fin 128) (q : Fin 64) : idx_main_v71 (ix2 k q) = ix2 q k :=
  funext fun a => Fin.ext (by match a with | ⟨0, _⟩ => rfl | ⟨1, _⟩ => rfl)
theorem b69 (p : Fin 100000) (q : Fin 64) : idx_main_v69 (ix2 p q) = ix2 (0 : Fin 1) q :=
  funext fun a => Fin.ext (by match a with | ⟨0, _⟩ => rfl | ⟨1, _⟩ => rfl)
theorem b68 (q : Fin 64) : idx_main_v68 (ix2 (0 : Fin 1) q) = ix1 q :=
  funext fun a => Fin.ext (by match a with | ⟨0, _⟩ => rfl)
theorem b75 (p : Fin 100000) (q : Fin 64) : idx_main_v75 (ix2 p q) = ix2 (0 : Fin 1) q :=
  funext fun a => Fin.ext (by match a with | ⟨0, _⟩ => rfl | ⟨1, _⟩ => rfl)
theorem b74 (q : Fin 64) : idx_main_v74 (ix2 (0 : Fin 1) q) = ix1 q :=
  funext fun a => Fin.ext (by match a with | ⟨0, _⟩ => rfl)
theorem b81 (p : Fin 100000) (q : Fin 64) : idx_main_v81 (ix2 p q) = ix2 (0 : Fin 1) q :=
  funext fun a => Fin.ext (by match a with | ⟨0, _⟩ => rfl | ⟨1, _⟩ => rfl)
theorem b80 (q : Fin 64) : idx_main_v80 (ix2 (0 : Fin 1) q) = ix1 q :=
  funext fun a => Fin.ext (by match a with | ⟨0, _⟩ => rfl)
theorem b84 (p : Fin 100000) (q : Fin 64) : idx_main_v84 (ix2 p q) = ix2 (0 : Fin 1) q :=
  funext fun a => Fin.ext (by match a with | ⟨0, _⟩ => rfl | ⟨1, _⟩ => rfl)
theorem b83 (q : Fin 64) : idx_main_v83 (ix2 (0 : Fin 1) q) = ix1 q :=
  funext fun a => Fin.ext (by match a with | ⟨0, _⟩ => rfl)
theorem b87 (p : Fin 100000) (q : Fin 64) : idx_main_v87 (ix2 p q) = ix2 (0 : Fin 1) q :=
  funext fun a => Fin.ext (by match a with | ⟨0, _⟩ => rfl | ⟨1, _⟩ => rfl)
theorem b86 (q : Fin 64) : idx_main_v86 (ix2 (0 : Fin 1) q) = ix1 q :=
  funext fun a => Fin.ext (by match a with | ⟨0, _⟩ => rfl)

/-- The first layer's last stage is the rectified layer of the aggregation stage and the arguments. -/
theorem layer1 (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 x6 x7 x8 : (⟨S128, .f32⟩ : BufTy).Contents (Elt Ideal)) :
    val_main_v46 (F := Ideal) x0 x1 x2 x3 x4 x5 x6 x7 x8
      = Cert.Sage.relu (Cert.Sage.layer (fun p k => val_main_v22 (F := Ideal) x0 x1 (ix2 p k)) (fun p k => x0 (ix2 p k))
          (fun q k => x2 (ix2 q k)) (fun q k => x4 (ix2 q k))
          (fun q => x3 (ix1 q)) (fun q => x7 (ix1 q)) (fun q => x8 (ix1 q)) (fun q => x5 (ix1 q)) (fun q => x6 (ix1 q))) := by
  funext i
  obtain ⟨p, q, rfl⟩ : ∃ (p : Fin 100000) (q : Fin 128), i = ix2 p q := ⟨i 0, i 1, eq_ix2 i⟩
  rw [val_main_v46_apply, val_main_v45_apply, val_main_v42_apply, val_main_v39_apply, val_main_v33_apply, val_main_v30_apply,
    val_main_v27_apply, val_main_v24_apply, val_main_v29_apply, val_main_v26_apply, val_main_v25_apply, val_main_v32_apply, val_main_v31_apply,
    val_main_v38_apply, val_main_v37_apply, val_main_v36_apply, val_main_v35_apply, val_main_v34_apply, val_main_cst_4_apply,
    val_main_v41_apply, val_main_v40_apply, val_main_v44_apply, val_main_v43_apply, val_main_call0_v0_apply, val_main_call0_cst_apply]
  generalize val_main_v22 (F := Ideal) x0 x1 = A
  have s1 : (∑ k, A (lidx_main_v24 (ix2 p q) k) * val_main_v23 (F := Ideal) x2 (ridx_main_v24 (ix2 p q) k))
      = ∑ k : Fin 64, A (ix2 p k) * x2 (ix2 q k) :=
    Finset.sum_congr rfl fun k _ => by rw [l24, r24, val_main_v23_apply, t23]
  have s2 : (∑ k, x0 (lidx_main_v29 (ix2 p q) k) * val_main_v28 (F := Ideal) x4 (ridx_main_v29 (ix2 p q) k))
      = ∑ k : Fin 64, x0 (ix2 p k) * x4 (ix2 q k) :=
    Finset.sum_congr rfl fun k _ => by rw [l29, r29, val_main_v28_apply, t28]
  rw [s1, s2, b26, b25, b32, b31, b38, b37, b41, b40, b44, b43]
  exact congrArg (fun z => max z Cert.Sage.zeroF) (Cert.Sage.entry_bias_between (fun k => A (ix2 p k)) (fun k => x0 (ix2 p k))
    (fun k => x2 (ix2 q k)) (fun k => x4 (ix2 q k)) (x3 (ix1 q)) (x7 (ix1 q)) (x8 (ix1 q)) (x5 (ix1 q)) (x6 (ix1 q)))

/-- The second layer's last stage is the layer of its aggregation stage, the first layer's result and the arguments. -/
theorem layer2 (x0 : (⟨S100000x64, .f32⟩ : BufTy).Contents (Elt Ideal)) (x1 : (⟨S2x1600000, .i32⟩ : BufTy).Contents (Elt Ideal)) (x2 : (⟨S128x64, .f32⟩ : BufTy).Contents (Elt Ideal)) (x3 : (⟨S128, .f32⟩ : BufTy).Contents (Elt Ideal)) (x4 : (⟨S128x64, .f32⟩ : BufTy).Contents (Elt Ideal)) (x5 x6 x7 x8 : (⟨S128, .f32⟩ : BufTy).Contents (Elt Ideal))
    (x9 : (⟨S64x128, .f32⟩ : BufTy).Contents (Elt Ideal)) (x10 : (⟨S64, .f32⟩ : BufTy).Contents (Elt Ideal)) (x11 : (⟨S64x128, .f32⟩ : BufTy).Contents (Elt Ideal)) (x12 x13 x14 x15 : (⟨S64, .f32⟩ : BufTy).Contents (Elt Ideal)) :
    val_main_v88 (F := Ideal) x0 x1 x2 x3 x4 x5 x6 x7 x8 x9 x10 x11 x12 x13 x14 x15
      = Cert.Sage.layer (fun p k => val_main_v65 (F := Ideal) x0 x1 x2 x3 x4 x5 x6 x7 x8 (ix2 p k))
          (fun p k => val_main_v46 (F := Ideal) x0 x1 x2 x3 x4 x5 x6 x7 x8 (ix2 p k))
          (fun q k => x9 (ix2 q k)) (fun q k => x11 (ix2 q k))
          (fun q => x10 (ix1 q)) (fun q => x14 (ix1 q)) (fun q => x15 (ix1 q)) (fun q => x12 (ix1 q)) (fun q => x13 (ix1 q)) := by
  funext i
  obtain ⟨p, q, rfl⟩ : ∃ (p : Fin 100000) (q : Fin 64), i = ix2 p q := ⟨i 0, i 1, eq_ix2 i⟩
  rw [val_main_v88_apply, val_main_v85_apply, val_main_v82_apply, val_main_v76_apply, val_main_v73_apply, val_main_v70_apply,
    val_main_v67_apply, val_main_v72_apply, val_main_v69_apply, val_main_v68_apply, val_main_v75_apply, val_main_v74_apply,
    val_main_v81_apply, val_main_v80_apply, val_main_v79_apply, val_main_v78_apply, val_main_v77_apply, val_main_cst_11_apply,
    val_main_v84_apply, val_main_v83_apply, val_main_v87_apply, val_main_v86_apply]
  generalize val_main_v65 (F := Ideal) x0 x1 x2 x3 x4 x5 x6 x7 x8 = A
  generalize val_main_v46 (F := Ideal) x0 x1 x2 x3 x4 x5 x6 x7 x8 = H
  have s1 : (∑ k, A (lidx_main_v67 (ix2 p q) k) * val_main_v66 (F := Ideal) x9 (ridx_main_v67 (ix2 p q) k))
      = ∑ k : Fin 128, A (ix2 p k) * x9 (ix2 q k) :=
    Finset.sum_congr rfl fun k _ => by rw [l67, r67, val_main_v66_apply, t66]
  have s2 : (∑ k, H (lidx_main_v72 (ix2 p q) k) * val_main_v71 (F := Ideal) x11 (ridx_main_v72 (ix2 p q) k))
      = ∑ k : Fin 128, H (ix2 p k) * x11 (ix2 q k) :=
    Finset.sum_congr rfl fun k _ => by rw [l72, r72, val_main_v71_apply, t71]
  rw [s1, s2, b69, b68, b75, b74, b81, b80, b84, b83, b87, b86]
  exact Cert.Sage.entry_bias_between (fun k => A (ix2 p k)) (fun k => H (ix2 p k))
    (fun k => x9 (ix2 q k)) (fun k => x11 (ix2 q k)) (x10 (ix1 q)) (x14 (ix1 q)) (x15 (ix1 q)) (x12 (ix1 q)) (x13 (ix1 q))

end Cert.ReferenceIdeal.RefValue

end
-- ==== Proof.LibBroadcastInDim.lean ====
/-
  A host `broadcast_in_dim` read at an explicit index, for the shapes a bias row and a kept row-reduction take:
  a vector laid out as a column or as a row, a column repeated along the columns, a row repeated along the rows, and a
  scalar repeated everywhere. Stated over any element type.
-/
import Idealize.ShloMosaic.Lib.Pipeline.Value
import Idealize.ShloMosaic.Lib.ValueIdx

namespace Idealize.ShloMosaic.ValueIdx

variable {α : Type}

/-- `[a]` laid out as the column `[a, 1]`: entry `(p, u)` is the vector's entry `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- `[b]` laid out as the row `[1, b]`: entry `(u, c)` is the vector's entry `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) :=
  broadcastInDim_apply _ h v (ix2 u c) (ix1 c) (fun ax => match ax with
    | ⟨0, _⟩ => by
      show c.val = if b = 1 then 0 else c.val
      split
      · have := c.isLt; omega
      · rfl)

/-- The column `[a, 1]` repeated to `[a, b]`: entry `(p, c)` is the column's entry in row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v (ix2 p c) (ix2 p (0 : Fin 1)) (fun ax => match ax with
    | ⟨0, _⟩ => by
      show p.val = if a = 1 then 0 else p.val
      split
      · have := p.isLt; omega
      · rfl
    | ⟨1, _⟩ => rfl)

/-- The row `[1, b]` repeated to `[a, b]`: entry `(p, c)` is the row's entry in column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v (ix2 p c) (ix2 (0 : Fin 1) c) (fun ax => match ax with
    | ⟨0, _⟩ => rfl
    | ⟨1, _⟩ => by
      show c.val = if b = 1 then 0 else c.val
      split
      · have := c.isLt; omega
      · rfl)

/-- A scalar repeated to any shape: every entry is the scalar. -/
theorem broadcastInDim_scalar_apply {t : Shape} (v : (⟨0, ![]⟩ : Shape).Idx → α)
    (h : (⟨0, ![]⟩ : Shape).BroadcastsInDim t ![]) (i : t.Idx) :
    broadcastInDim t ![] h v i = v ix0 :=
  broadcastInDim_apply _ h v i ix0 (fun ax => ax.elim0)

end Idealize.ShloMosaic.ValueIdx
-- ==== Proof.Agg.lean ====
/-
  The mean aggregation, in its two spellings, is one array.

  A neighbour sum S (100000 rows, b columns) is scaled row by row by the degree d = max(deg, 1), where deg is the
  degree vector (100000 entries).  One program forms the reciprocal 1 / d as a vector, lays it out as a column and
  repeats it along the b columns, and multiplies S by it; the other lays out d itself the same way and divides S by
  it.  At entry (p, c) the first is  S[p,c] · (1 / max(deg[p], 1))  and the second  S[p,c] / max(deg[p], 1);  these
  agree for every extended real S[p,c] and deg[p] because max(deg[p], 1) ≥ 1 is never zero (the specification's
  `mul_one_div_max`).  Neither S nor deg is looked into.
-/
import proofs.«178429_j11141145166397_1_alg».proof.Proof.LibBroadcastInDim
import proofs.«178429_j11141145166397_1_alg».proof.Proof.Spec
import Idealize.ShloMosaic.PureOps.Ideal
import Idealize.ShloMosaic.Lib.ValueIdx

noncomputable section

namespace Cert.Sage

open Idealize.ShloMosaic Idealize.ShloMosaic.ValueIdx

/-- Multiplying the neighbour sums by the laid-out reciprocal degree is dividing them by the laid-out degree. -/
theorem mul_recip_eq_div {b : ℕ} (S : FVec Ideal ⟨2, ![100000, b]⟩ .f32) (deg : FVec Ideal ⟨1, ![100000]⟩ .f32)
    (h2 : (⟨2, ![100000, 1]⟩ : Shape).BroadcastsInDim ⟨2, ![100000, b]⟩ ![0, 1])
    (h1 : (⟨1, ![100000]⟩ : Shape).BroadcastsInDim ⟨2, ![100000, 1]⟩ ![0])
    (h0 : (⟨0, ![]⟩ : Shape).BroadcastsInDim ⟨1, ![100000]⟩ ![]) :
    mulf S (broadcastInDim ⟨2, ![100000, b]⟩ ![0, 1] h2 (broadcastInDim ⟨2, ![100000, 1]⟩ ![0] h1
        (Host.divf (broadcastInDim ⟨1, ![100000]⟩ ![] h0 (constant (F := Ideal) ⟨0, ![]⟩ .f32 0x3F800000#32))
          (maximumf deg (broadcastInDim ⟨1, ![100000]⟩ ![] h0 (constant (F := Ideal) ⟨0, ![]⟩ .f32 0x3F800000#32))))))
      = Host.divf S (broadcastInDim ⟨2, ![100000, b]⟩ ![0, 1] h2 (broadcastInDim ⟨2, ![100000, 1]⟩ ![0] h1
          (maximumf deg (broadcastInDim ⟨1, ![100000]⟩ ![] h0 (constant (F := Ideal) ⟨0, ![]⟩ .f32 0x3F800000#32))))) := by
  funext i
  obtain ⟨p, c, rfl⟩ : ∃ (p : Fin 100000) (c : Fin b), i = ix2 p c := ⟨i 0, i 1, eq_ix2 i⟩
  show S (ix2 p c) * _ = Ideal.div (S (ix2 p c)) _
  rw [broadcastInDim_a1_ab_apply, broadcastInDim_a_a1_apply, broadcastInDim_a1_ab_apply, broadcastInDim_a_a1_apply]
  show S (ix2 p c) * Ideal.div (broadcastInDim ⟨1, ![100000]⟩ ![] h0 (constant (F := Ideal) ⟨0, ![]⟩ .f32 0x3F800000#32) (ix1 p))
        (max (deg (ix1 p)) (broadcastInDim ⟨1, ![100000]⟩ ![] h0 (constant (F := Ideal) ⟨0, ![]⟩ .f32 0x3F800000#32) (ix1 p)))
      = Ideal.div (S (ix2 p c))
        (max (deg (ix1 p)) (broadcastInDim ⟨1, ![100000]⟩ ![] h0 (constant (F := Ideal) ⟨0, ![]⟩ .f32 0x3F800000#32) (ix1 p)))
  rw [broadcastInDim_scalar_apply]
  exact mul_one_div_max _ _

end Cert.Sage

end
-- ==== Proof.Contents.lean ====
/-
  What the buffers hold at the boundaries of the program's four segments, at the ideal values, and from that the result.

  Before the first pipelined call the host operations have written, among others: the aggregated input features (the
  neighbour sums times the laid-out reciprocal of max(degree, 1)), and the five parameter rows reshaped to 1 × 128.
  The call's result is the rectified layer of those (the call's value, for any entry contents).  Before the second call
  the host operations aggregate that result the same way and reshape the second layer's rows to 1 × 64; the call's
  result is the layer of those.

  Each aggregated array is the other program's aggregation stage of the same launch arrays: both are the same
  neighbour sums (the same gather and scatter-add of the same index arrays — never opened here) scaled by
  max(degree, 1), once through the reciprocal and once by division, which is one array (the aggregation lemma).
  A row reshaped to 1 × w reads, at (0, q), the row's entry q.  With these the first call's result is the other
  program's first-layer stage, and the second call's result its last stage, of the launch arrays.
-/
import proofs.«178429_j11141145166397_1_alg».proof.Proof.Gen.KernelIdeal.Frame
import proofs.«178429_j11141145166397_1_alg».proof.Proof.Region0
import proofs.«178429_j11141145166397_1_alg».proof.Proof.Region1
import proofs.«178429_j11141145166397_1_alg».proof.Proof.RefLayers
import proofs.«178429_j11141145166397_1_alg».proof.Proof.Agg
import Idealize.ShloMosaic.Lib.ValueLayout
import Idealize.ShloMosaic.Lib.StableHlo.Run

set_option maxRecDepth 16384

noncomputable section

namespace Cert.KernelIdeal.Contents

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## After the first stretch of host operations -/

theorem w1_arg0 : W1 m ρ c (Proc.devRef .tc main_arg0) = (m ((c.tc : Thread nD τ).loc main_arg0)) := by
  show StableHlo.after hostOps0 (W0 m ρ c) (Proc.devRef .tc main_arg0) = _
  dsimp only [hostOps0]
  after_results_simp <;> rfl
theorem w1_arg2 : W1 m ρ c (Proc.devRef .tc main_arg2) = (m ((c.tc : Thread nD τ).loc main_arg2)) := by
  show StableHlo.after hostOps0 (W0 m ρ c) (Proc.devRef .tc main_arg2) = _
  dsimp only [hostOps0]
  after_results_simp <;> rfl
theorem w1_arg4 : W1 m ρ c (Proc.devRef .tc main_arg4) = (m ((c.tc : Thread nD τ).loc main_arg4)) := by
  show StableHlo.after hostOps0 (W0 m ρ c) (Proc.devRef .tc main_arg4) = _
  dsimp only [hostOps0]
  after_results_simp <;> rfl
theorem w1_arg9 : W1 m ρ c (Proc.devRef .tc main_arg9) = (m ((c.tc : Thread nD τ).loc main_arg9)) := by
  show StableHlo.after hostOps0 (W0 m ρ c) (Proc.devRef .tc main_arg9) = _
  dsimp only [hostOps0]
  after_results_simp <;> rfl
theorem w1_arg10 : W1 m ρ c (Proc.devRef .tc main_arg10) = (m ((c.tc : Thread nD τ).loc main_arg10)) := by
  show StableHlo.after hostOps0 (W0 m ρ c) (Proc.devRef .tc main_arg10) = _
  dsimp only [hostOps0]
  after_results_simp <;> rfl
theorem w1_arg11 : W1 m ρ c (Proc.devRef .tc main_arg11) = (m ((c.tc : Thread nD τ).loc main_arg11)) := by
  show StableHlo.after hostOps0 (W0 m ρ c) (Proc.devRef .tc main_arg11) = _
  dsimp only [hostOps0]
  after_results_simp <;> rfl
theorem w1_arg12 : W1 m ρ c (Proc.devRef .tc main_arg12) = (m ((c.tc : Thread nD τ).loc main_arg12)) := by
  show StableHlo.after hostOps0 (W0 m ρ c) (Proc.devRef .tc main_arg12) = _
  dsimp only [hostOps0]
  after_results_simp <;> rfl
theorem w1_arg13 : W1 m ρ c (Proc.devRef .tc main_arg13) = (m ((c.tc : Thread nD τ).loc main_arg13)) := by
  show StableHlo.after hostOps0 (W0 m ρ c) (Proc.devRef .tc main_arg13) = _
  dsimp only [hostOps0]
  after_results_simp <;> rfl
theorem w1_arg14 : W1 m ρ c (Proc.devRef .tc main_arg14) = (m ((c.tc : Thread nD τ).loc main_arg14)) := by
  show StableHlo.after hostOps0 (W0 m ρ c) (Proc.devRef .tc main_arg14) = _
  dsimp only [hostOps0]
  after_results_simp <;> rfl
theorem w1_arg15 : W1 m ρ c (Proc.devRef .tc main_arg15) = (m ((c.tc : Thread nD τ).loc main_arg15)) := by
  show StableHlo.after hostOps0 (W0 m ρ c) (Proc.devRef .tc main_arg15) = _
  dsimp only [hostOps0]
  after_results_simp <;> rfl

/-- The source-node indices, the destination-node indices and the laid-out reciprocal degree, as the other program's stages. -/
theorem w1_v1 : W1 m ρ c (Proc.devRef .tc main_v1) = Cert.ReferenceIdeal.Read.val_main_v1 (F := Ideal) (m ((c.tc : Thread nD τ).loc main_arg1)) := by
  show StableHlo.after hostOps0 (W0 m ρ c) (Proc.devRef .tc main_v1) = _
  dsimp only [hostOps0]
  after_results_simp <;> rfl
theorem w1_v3 : W1 m ρ c (Proc.devRef .tc main_v3) = Cert.ReferenceIdeal.Read.val_main_v3 (F := Ideal) (m ((c.tc : Thread nD τ).loc main_arg1)) := by
  show StableHlo.after hostOps0 (W0 m ρ c) (Proc.devRef .tc main_v3) = _
  dsimp only [hostOps0]
  after_results_simp <;> rfl
theorem w1_v12 : W1 m ρ c (Proc.devRef .tc main_v12)
    = broadcastInDim S100000x1 ![0] bcast_S100000_S100000x1_0
        (Host.divf (broadcastInDim S100000 ![] bcast_S_S100000 (constant (F := Ideal) S_ .f32 0x3F800000#32)) (maximumf (Cert.ReferenceIdeal.Read.val_main_v17 (F := Ideal) (m ((c.tc : Thread nD τ).loc main_arg1))) (broadcastInDim S100000 ![] bcast_S_S100000 (constant (F := Ideal) S_ .f32 0x3F800000#32)))) := by
  show StableHlo.after hostOps0 (W0 m ρ c) (Proc.devRef .tc main_v12) = _
  dsimp only [hostOps0]
  after_results_simp
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst_1, Cert.ReferenceIdeal.Read.val_main_v14, Cert.ReferenceIdeal.Read.val_main_cst_2, Cert.ReferenceIdeal.Read.val_main_v15, Cert.ReferenceIdeal.Read.val_main_v16, Cert.ReferenceIdeal.Read.val_main_v17]
  rfl

/-- The aggregated input features are the other program's aggregation stage. -/
theorem v1_v24 : V1 m ρ c main_v24 = Cert.ReferenceIdeal.Read.val_main_v22 (F := Ideal) (m ((c.tc : Thread nD τ).loc main_arg0)) (m ((c.tc : Thread nD τ).loc main_arg1)) := by
  show StableHlo.after hostOps0 (W0 m ρ c) (Proc.devRef .tc main_v24) = _
  dsimp only [hostOps0]
  after_results_simp
  refine (Cert.Sage.mul_recip_eq_div _ _ _ _ _).trans ?_
  simp only [Cert.ReferenceIdeal.Read.val_main_v0, Cert.ReferenceIdeal.Read.val_main_v1, Cert.ReferenceIdeal.Read.val_main_v2, Cert.ReferenceIdeal.Read.val_main_v3, Cert.ReferenceIdeal.Read.val_main_c, Cert.ReferenceIdeal.Read.val_main_v4, Cert.ReferenceIdeal.Read.val_main_v5, Cert.ReferenceIdeal.Read.val_main_c_0, Cert.ReferenceIdeal.Read.val_main_v6, Cert.ReferenceIdeal.Read.val_main_v7, Cert.ReferenceIdeal.Read.val_main_v8, Cert.ReferenceIdeal.Read.val_main_v9, Cert.ReferenceIdeal.Read.val_main_v10, Cert.ReferenceIdeal.Read.val_main_cst, Cert.ReferenceIdeal.Read.val_main_v11, Cert.ReferenceIdeal.Read.val_main_v12, Cert.ReferenceIdeal.Read.val_main_v13, Cert.ReferenceIdeal.Read.val_main_cst_1, Cert.ReferenceIdeal.Read.val_main_v14, Cert.ReferenceIdeal.Read.val_main_cst_2, Cert.ReferenceIdeal.Read.val_main_v15, Cert.ReferenceIdeal.Read.val_main_v16, Cert.ReferenceIdeal.Read.val_main_v17, Cert.ReferenceIdeal.Read.val_main_cst_3, Cert.ReferenceIdeal.Read.val_main_v18, Cert.ReferenceIdeal.Read.val_main_v19, Cert.ReferenceIdeal.Read.val_main_v20, Cert.ReferenceIdeal.Read.val_main_v21, Cert.ReferenceIdeal.Read.val_main_v22]
  rfl

theorem v1_arg0 : V1 m ρ c main_arg0 = (m ((c.tc : Thread nD τ).loc main_arg0)) := w1_arg0 m ρ c
theorem v1_arg2 : V1 m ρ c main_arg2 = (m ((c.tc : Thread nD τ).loc main_arg2)) := w1_arg2 m ρ c
theorem v1_arg4 : V1 m ρ c main_arg4 = (m ((c.tc : Thread nD τ).loc main_arg4)) := w1_arg4 m ρ c

theorem v1_v25_at (q : Fin 128) : V1 m ρ c main_v25 (ix2 (0 : Fin 1) q) = (m ((c.tc : Thread nD τ).loc main_arg3)) (ix1 q) := by
  have e : V1 m ρ c main_v25 = shapeCast S1x128 (m ((c.tc : Thread nD τ).loc main_arg3)) shapeCasts_S128_S1x128 := by
    show StableHlo.after hostOps0 (W0 m ρ c) (Proc.devRef .tc main_v25) = _
    dsimp only [hostOps0]
    after_results_simp <;> rfl
  rw [e]
  exact shapeCast_a_1a_apply _ _ 0 q
theorem v1_v26_at (q : Fin 128) : V1 m ρ c main_v26 (ix2 (0 : Fin 1) q) = (m ((c.tc : Thread nD τ).loc main_arg5)) (ix1 q) := by
  have e : V1 m ρ c main_v26 = shapeCast S1x128 (m ((c.tc : Thread nD τ).loc main_arg5)) shapeCasts_S128_S1x128 := by
    show StableHlo.after hostOps0 (W0 m ρ c) (Proc.devRef .tc main_v26) = _
    dsimp only [hostOps0]
    after_results_simp <;> rfl
  rw [e]
  exact shapeCast_a_1a_apply _ _ 0 q
theorem v1_v27_at (q : Fin 128) : V1 m ρ c main_v27 (ix2 (0 : Fin 1) q) = (m ((c.tc : Thread nD τ).loc main_arg6)) (ix1 q) := by
  have e : V1 m ρ c main_v27 = shapeCast S1x128 (m ((c.tc : Thread nD τ).loc main_arg6)) shapeCasts_S128_S1x128 := by
    show StableHlo.after hostOps0 (W0 m ρ c) (Proc.devRef .tc main_v27) = _
    dsimp only [hostOps0]
    after_results_simp <;> rfl
  rw [e]
  exact shapeCast_a_1a_apply _ _ 0 q
theorem v1_v28_at (q : Fin 128) : V1 m ρ c main_v28 (ix2 (0 : Fin 1) q) = (m ((c.tc : Thread nD τ).loc main_arg7)) (ix1 q) := by
  have e : V1 m ρ c main_v28 = shapeCast S1x128 (m ((c.tc : Thread nD τ).loc main_arg7)) shapeCasts_S128_S1x128 := by
    show StableHlo.after hostOps0 (W0 m ρ c) (Proc.devRef .tc main_v28) = _
    dsimp only [hostOps0]
    after_results_simp <;> rfl
  rw [e]
  exact shapeCast_a_1a_apply _ _ 0 q
theorem v1_v29_at (q : Fin 128) : V1 m ρ c main_v29 (ix2 (0 : Fin 1) q) = (m ((c.tc : Thread nD τ).loc main_arg8)) (ix1 q) := by
  have e : V1 m ρ c main_v29 = shapeCast S1x128 (m ((c.tc : Thread nD τ).loc main_arg8)) shapeCasts_S128_S1x128 := by
    show StableHlo.after hostOps0 (W0 m ρ c) (Proc.devRef .tc main_v29) = _
    dsimp only [hostOps0]
    after_results_simp <;> rfl
  rw [e]
  exact shapeCast_a_1a_apply _ _ 0 q

/-! ## The first call's result -/

theorem g0_eq : Cert.KernelIdeal.Region0.G (V1 m ρ) c = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  rw [Cert.ReferenceIdeal.RefValue.layer1]
  unfold Cert.KernelIdeal.Region0.G
  rw [v1_v24, v1_arg0, v1_arg2, v1_arg4]
  have r25 : (fun q : Fin 128 => V1 m ρ c main_v25 (ix2 (0 : Fin 1) q)) = fun q => (m ((c.tc : Thread nD τ).loc main_arg3)) (ix1 q) :=
    funext (v1_v25_at m ρ c)
  have r26 : (fun q : Fin 128 => V1 m ρ c main_v26 (ix2 (0 : Fin 1) q)) = fun q => (m ((c.tc : Thread nD τ).loc main_arg5)) (ix1 q) :=
    funext (v1_v26_at m ρ c)
  have r27 : (fun q : Fin 128 => V1 m ρ c main_v27 (ix2 (0 : Fin 1) q)) = fun q => (m ((c.tc : Thread nD τ).loc main_arg6)) (ix1 q) :=
    funext (v1_v27_at m ρ c)
  have r28 : (fun q : Fin 128 => V1 m ρ c main_v28 (ix2 (0 : Fin 1) q)) = fun q => (m ((c.tc : Thread nD τ).loc main_arg7)) (ix1 q) :=
    funext (v1_v28_at m ρ c)
  have r29 : (fun q : Fin 128 => V1 m ρ c main_v29 (ix2 (0 : Fin 1) q)) = fun q => (m ((c.tc : Thread nD τ).loc main_arg8)) (ix1 q) :=
    funext (v1_v29_at m ρ c)
  rw [r25, r26, r27, r28, r29]

theorem w2_v30 : W2 m ρ c (Proc.devRef .tc main_v30) = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (W2_arr m ρ c 9).trans ((Cert.KernelIdeal.Region0.final (V1 m ρ) c).trans (g0_eq m ρ c))

/-! ## After the second stretch of host operations -/

theorem v3_v30 : V3 m ρ c main_v30 = Cert.ReferenceIdeal.Read.val_main_v46 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps1 (W2 m ρ c) (Proc.devRef .tc main_v30) = _
  dsimp only [hostOps1]
  after_results_simp
  exact w2_v30 m ρ c

theorem v3_arg9 : V3 m ρ c main_arg9 = (m ((c.tc : Thread nD τ).loc main_arg9)) := by
  show StableHlo.after hostOps1 (W2 m ρ c) (Proc.devRef .tc main_arg9) = _
  dsimp only [hostOps1]
  after_results_simp
  exact (W2_of_ne m ρ c main_arg9 (by decide)).trans (w1_arg9 m ρ c)
theorem v3_arg11 : V3 m ρ c main_arg11 = (m ((c.tc : Thread nD τ).loc main_arg11)) := by
  show StableHlo.after hostOps1 (W2 m ρ c) (Proc.devRef .tc main_arg11) = _
  dsimp only [hostOps1]
  after_results_simp
  exact (W2_of_ne m ρ c main_arg11 (by decide)).trans (w1_arg11 m ρ c)

theorem v3_v43_at (q : Fin 64) : V3 m ρ c main_v43 (ix2 (0 : Fin 1) q) = (m ((c.tc : Thread nD τ).loc main_arg10)) (ix1 q) := by
  have e : V3 m ρ c main_v43 = shapeCast S1x64 (m ((c.tc : Thread nD τ).loc main_arg10)) shapeCasts_S64_S1x64 := by
    show StableHlo.after hostOps1 (W2 m ρ c) (Proc.devRef .tc main_v43) = _
    dsimp only [hostOps1]
    after_results_simp
    rw [(W2_of_ne m ρ c main_arg10 (by decide)).trans (w1_arg10 m ρ c)]
    rfl
  rw [e]
  exact shapeCast_a_1a_apply _ _ 0 q
theorem v3_v44_at (q : Fin 64) : V3 m ρ c main_v44 (ix2 (0 : Fin 1) q) = (m ((c.tc : Thread nD τ).loc main_arg12)) (ix1 q) := by
  have e : V3 m ρ c main_v44 = shapeCast S1x64 (m ((c.tc : Thread nD τ).loc main_arg12)) shapeCasts_S64_S1x64 := by
    show StableHlo.after hostOps1 (W2 m ρ c) (Proc.devRef .tc main_v44) = _
    dsimp only [hostOps1]
    after_results_simp
    rw [(W2_of_ne m ρ c main_arg12 (by decide)).trans (w1_arg12 m ρ c)]
    rfl
  rw [e]
  exact shapeCast_a_1a_apply _ _ 0 q
theorem v3_v45_at (q : Fin 64) : V3 m ρ c main_v45 (ix2 (0 : Fin 1) q) = (m ((c.tc : Thread nD τ).loc main_arg13)) (ix1 q) := by
  have e : V3 m ρ c main_v45 = shapeCast S1x64 (m ((c.tc : Thread nD τ).loc main_arg13)) shapeCasts_S64_S1x64 := by
    show StableHlo.after hostOps1 (W2 m ρ c) (Proc.devRef .tc main_v45) = _
    dsimp only [hostOps1]
    after_results_simp
    rw [(W2_of_ne m ρ c main_arg13 (by decide)).trans (w1_arg13 m ρ c)]
    rfl
  rw [e]
  exact shapeCast_a_1a_apply _ _ 0 q
theorem v3_v46_at (q : Fin 64) : V3 m ρ c main_v46 (ix2 (0 : Fin 1) q) = (m ((c.tc : Thread nD τ).loc main_arg14)) (ix1 q) := by
  have e : V3 m ρ c main_v46 = shapeCast S1x64 (m ((c.tc : Thread nD τ).loc main_arg14)) shapeCasts_S64_S1x64 := by
    show StableHlo.after hostOps1 (W2 m ρ c) (Proc.devRef .tc main_v46) = _
    dsimp only [hostOps1]
    after_results_simp
    rw [(W2_of_ne m ρ c main_arg14 (by decide)).trans (w1_arg14 m ρ c)]
    rfl
  rw [e]
  exact shapeCast_a_1a_apply _ _ 0 q
theorem v3_v47_at (q : Fin 64) : V3 m ρ c main_v47 (ix2 (0 : Fin 1) q) = (m ((c.tc : Thread nD τ).loc main_arg15)) (ix1 q) := by
  have e : V3 m ρ c main_v47 = shapeCast S1x64 (m ((c.tc : Thread nD τ).loc main_arg15)) shapeCasts_S64_S1x64 := by
    show StableHlo.after hostOps1 (W2 m ρ c) (Proc.devRef .tc main_v47) = _
    dsimp only [hostOps1]
    after_results_simp
    rw [(W2_of_ne m ρ c main_arg15 (by decide)).trans (w1_arg15 m ρ c)]
    rfl
  rw [e]
  exact shapeCast_a_1a_apply _ _ 0 q

/-- The aggregated hidden features are the other program's second aggregation stage. -/
theorem v3_v42 : V3 m ρ c main_v42 = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps1 (W2 m ρ c) (Proc.devRef .tc main_v42) = _
  dsimp only [hostOps1]
  after_results_simp
  rw [w2_v30, (W2_of_ne m ρ c main_v1 (by decide)).trans (w1_v1 m ρ c), (W2_of_ne m ρ c main_v3 (by decide)).trans (w1_v3 m ρ c),
    (W2_of_ne m ρ c main_v12 (by decide)).trans (w1_v12 m ρ c)]
  refine (Cert.Sage.mul_recip_eq_div _ _ _ _ _).trans ?_
  simp only [Cert.ReferenceIdeal.Read.val_main_v0, Cert.ReferenceIdeal.Read.val_main_v1, Cert.ReferenceIdeal.Read.val_main_v2, Cert.ReferenceIdeal.Read.val_main_v3, Cert.ReferenceIdeal.Read.val_main_cst_1, Cert.ReferenceIdeal.Read.val_main_v14, Cert.ReferenceIdeal.Read.val_main_cst_2, Cert.ReferenceIdeal.Read.val_main_v15, Cert.ReferenceIdeal.Read.val_main_v16, Cert.ReferenceIdeal.Read.val_main_v17, Cert.ReferenceIdeal.Read.val_main_c_5, Cert.ReferenceIdeal.Read.val_main_v47, Cert.ReferenceIdeal.Read.val_main_v48, Cert.ReferenceIdeal.Read.val_main_c_6, Cert.ReferenceIdeal.Read.val_main_v49, Cert.ReferenceIdeal.Read.val_main_v50, Cert.ReferenceIdeal.Read.val_main_v51, Cert.ReferenceIdeal.Read.val_main_v52, Cert.ReferenceIdeal.Read.val_main_v53, Cert.ReferenceIdeal.Read.val_main_cst_7, Cert.ReferenceIdeal.Read.val_main_v54, Cert.ReferenceIdeal.Read.val_main_v55, Cert.ReferenceIdeal.Read.val_main_v56, Cert.ReferenceIdeal.Read.val_main_cst_8, Cert.ReferenceIdeal.Read.val_main_v57, Cert.ReferenceIdeal.Read.val_main_cst_9, Cert.ReferenceIdeal.Read.val_main_v58, Cert.ReferenceIdeal.Read.val_main_v59, Cert.ReferenceIdeal.Read.val_main_v60, Cert.ReferenceIdeal.Read.val_main_cst_10, Cert.ReferenceIdeal.Read.val_main_v61, Cert.ReferenceIdeal.Read.val_main_v62, Cert.ReferenceIdeal.Read.val_main_v63, Cert.ReferenceIdeal.Read.val_main_v64, Cert.ReferenceIdeal.Read.val_main_v65]
  rfl

/-! ## The second call's result, and the program's -/

theorem g1_eq : Cert.KernelIdeal.Region1.G (V3 m ρ) c = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  rw [Cert.ReferenceIdeal.RefValue.layer2]
  unfold Cert.KernelIdeal.Region1.G
  rw [v3_v42, v3_v30, v3_arg9, v3_arg11]
  have r43 : (fun q : Fin 64 => V3 m ρ c main_v43 (ix2 (0 : Fin 1) q)) = fun q => (m ((c.tc : Thread nD τ).loc main_arg10)) (ix1 q) :=
    funext (v3_v43_at m ρ c)
  have r44 : (fun q : Fin 64 => V3 m ρ c main_v44 (ix2 (0 : Fin 1) q)) = fun q => (m ((c.tc : Thread nD τ).loc main_arg12)) (ix1 q) :=
    funext (v3_v44_at m ρ c)
  have r45 : (fun q : Fin 64 => V3 m ρ c main_v45 (ix2 (0 : Fin 1) q)) = fun q => (m ((c.tc : Thread nD τ).loc main_arg13)) (ix1 q) :=
    funext (v3_v45_at m ρ c)
  have r46 : (fun q : Fin 64 => V3 m ρ c main_v46 (ix2 (0 : Fin 1) q)) = fun q => (m ((c.tc : Thread nD τ).loc main_arg14)) (ix1 q) :=
    funext (v3_v46_at m ρ c)
  have r47 : (fun q : Fin 64 => V3 m ρ c main_v47 (ix2 (0 : Fin 1) q)) = fun q => (m ((c.tc : Thread nD τ).loc main_arg15)) (ix1 q) :=
    funext (v3_v47_at m ρ c)
  rw [r43, r44, r45, r46, r47]

/-- The result buffer's final contents: the other program's last stage of the launch arrays. -/
theorem result : W4 m ρ c (Proc.devRef .tc main_v48) = Cert.ReferenceIdeal.Read.val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) :=
  (W4_arr m ρ c 9).trans ((Cert.KernelIdeal.Region1.final (V3 m ρ) c).trans (g1_eq m ρ c))

end Cert.KernelIdeal.Contents

end
-- ==== Proof.lean ====
/-
  A two-layer mean-aggregation graph network (100000 nodes, 1600000 edges; 64 → 128 → 64 features), each layer followed
  by an evaluation-mode batch normalisation and the first by a rectifier: the pipelined program against its plain
  reference, at the ideal values (extended reals, exact operations).

  Both programs gather the source nodes' rows, scatter-add them at the destination nodes, and scale row p by
  d[p] = max(degree[p], 1).  The pipelined program multiplies by the reciprocal 1 / d[p], the reference divides by d[p];
  as d[p] ≥ 1 is never zero these agree for every extended real, so the two aggregated arrays are one array.  The
  gather and the scatter-add are the same operations of the same index arrays on both sides and are never opened.

  A layer's entry (p, q) is  (((Σ_k A[p,k]·Wl[q,k] + Σ_k X[p,k]·Wr[q,k]) + b[q] − μ[q]) · rsqrt(v[q] + ε)) · γ[q] + β[q].
  The pipelined program computes it block by block — 20 blocks of 5000 rows, each through two products on the matrix
  unit with the weights transposed in the body — and adds the bias after both products; the reference computes it on
  whole arrays and adds the bias between the products.  Addition of extended reals is commutative and associative, a
  product's entry is the same sum over the contracted index whichever way the operands are laid out, and the 20 blocks
  tile the rows: so each pipelined call leaves exactly the reference's layer of the same operands in its result array.
  The second layer is fed the first layer's result on both sides.  No step uses that the inputs are finite.

  Hence both programs, run from memories that agree on the sixteen argument arrays, terminate with the same result
  array — the reference's last stage as a function of the arguments — and leave the arguments unchanged.  The three
  frame claims are the generated frame runs (the reference's with its result dropped); no rewrite was applied in
  printing the idealized kernel, so there is nothing to preserve.
-/
import proofs.«178429_j11141145166397_1_alg».proof.Defs
import proofs.«178429_j11141145166397_1_alg».proof.Proof.Gen.Kernel
import proofs.«178429_j11141145166397_1_alg».proof.Proof.Gen.Kernel.Frame
import proofs.«178429_j11141145166397_1_alg».proof.Proof.Gen.KernelIdeal
import proofs.«178429_j11141145166397_1_alg».proof.Proof.Gen.KernelIdeal.Frame
import proofs.«178429_j11141145166397_1_alg».proof.Proof.Gen.ReferenceIdeal
import proofs.«178429_j11141145166397_1_alg».proof.Proof.Gen.Pre_finite_inputs
import proofs.«178429_j11141145166397_1_alg».proof.Proof.Gen.ReferenceIdeal.Run
import proofs.«178429_j11141145166397_1_alg».proof.Proof.Gen.ReferenceIdeal.Read
import proofs.«178429_j11141145166397_1_alg».proof.Proof.KernelRun
import proofs.«178429_j11141145166397_1_alg».proof.Proof.Contents

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the reference's last stage of the (agreeing) argument arrays. -/
theorem algebraic : Cert.algebraic_KernelIdeal_ReferenceIdeal := by
  intro m ρ m' ρ' _ hagree
  refine ⟨fun c => Cert.ReferenceIdeal.Read.val_main_v88 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9))
    (m ((c.tc : Thread Cert.KernelIdeal.nD Cert.KernelIdeal.τ).loc Cert.KernelIdeal.main_arg10))
    (m ((c.tc : Thread Cert.KernelIdeal.nD Cert.KernelIdeal.τ).loc Cert.KernelIdeal.main_arg11))
    (m ((c.tc : Thread Cert.KernelIdeal.nD Cert.KernelIdeal.τ).loc Cert.KernelIdeal.main_arg12))
    (m ((c.tc : Thread Cert.KernelIdeal.nD Cert.KernelIdeal.τ).loc Cert.KernelIdeal.main_arg13))
    (m ((c.tc : Thread Cert.KernelIdeal.nD Cert.KernelIdeal.τ).loc Cert.KernelIdeal.main_arg14))
    (m ((c.tc : Thread Cert.KernelIdeal.nD Cert.KernelIdeal.τ).loc Cert.KernelIdeal.main_arg15)), ?_, ?_⟩
  · exact (θ_run Cert.KernelIdeal.defs _ _).mono
      (fun r h c => ⟨(h c).1.trans (Cert.KernelIdeal.Contents.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14, e15⟩ := hagree c
    rw [Cert.ReferenceIdeal.Read.val_main_v88_eq, e0, e1, e2, e3, e4, e5, e6, e7, e8, e9, e10, e11, e12, e13, e14, e15]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
